-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x1024 : Shape := ⟨2, ![8192, 1024]⟩
abbrev S8192 : Shape := ⟨1, ![8192]⟩
abbrev S1024x64 : Shape := ⟨2, ![1024, 64]⟩
abbrev S1024 : Shape := ⟨1, ![1024]⟩
abbrev S1024x1024 : Shape := ⟨2, ![1024, 1024]⟩
abbrev S1024x1 : Shape := ⟨2, ![1024, 1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  reducesTo_S_S_d : S_.ReducesTo [] S_

variable [Facts]

def fn_part6 {F : FTy → Type} [FloatOps F] (main_v100 : IVec S_ 1) (main_v101 : FVec F S_ .f32) : IVec S_ 1 :=
  let main_cst_40 : FVec F S_ .f32 := constant S_ .f32 0x7F800000#32
  let main_v102 : IVec S_ 1 := cmpf .olt main_v101 main_cst_40
  let main_c_41 : IVec S_ 1 := constantI S_ 1 1#1
  let main_v103 : IVec S_ 1 := (fun x v => Host.reduce IntOp.andi x v reducesTo_S_S_d h_S_) main_v102 main_c_41
  let main_v104 : IVec S_ 1 := andi main_v100 main_v103
  main_v104

def fn_part5 {F : FTy → Type} [FloatOps F] (main_arg18 : FVec F S_ .f32) (main_arg19 : FVec F S_ .f32) (main_arg20 : FVec F S_ .f32) (main_arg21 : FVec F S_ .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S_ .f32 := Host.absf main_arg18
  let main_cst_34 : FVec F S_ .f32 := constant S_ .f32 0x7F800000#32
  let main_v90 : IVec S_ 1 := cmpf .olt main_v89 main_cst_34
  let main_c_35 : IVec S_ 1 := constantI S_ 1 1#1
  let main_v91 : IVec S_ 1 := (fun x v => Host.reduce IntOp.andi x v reducesTo_S_S_d h_S_) main_v90 main_c_35
  let main_v92 : IVec S_ 1 := andi main_v88 main_v91
  let main_v93 : FVec F S_ .f32 := Host.absf main_arg19
  let main_cst_36 : FVec F S_ .f32 := constant S_ .f32 0x7F800000#32
  let main_v94 : IVec S_ 1 := cmpf .olt main_v93 main_cst_36
  let main_c_37 : IVec S_ 1 := constantI S_ 1 1#1
  let main_v95 : IVec S_ 1 := (fun x v => Host.reduce IntOp.andi x v reducesTo_S_S_d h_S_) main_v94 main_c_37
  let main_v96 : IVec S_ 1 := andi main_v92 main_v95
  let main_v97 : FVec F S_ .f32 := Host.absf main_arg20
  let main_cst_38 : FVec F S_ .f32 := constant S_ .f32 0x7F800000#32
  let main_v98 : IVec S_ 1 := cmpf .olt main_v97 main_cst_38
  let main_c_39 : IVec S_ 1 := constantI S_ 1 1#1
  let main_v99 : IVec S_ 1 := (fun x v => Host.reduce IntOp.andi x v reducesTo_S_S_d h_S_) main_v98 main_c_39
  let main_v100 : IVec S_ 1 := andi main_v96 main_v99
  let main_v101 : FVec F S_ .f32 := Host.absf main_arg21
  fn_part6 (F := F) main_v100 main_v101

def fn_part4 {F : FTy → Type} [FloatOps F] (main_arg14 : FVec F S1024x1024 .f32) (main_arg15 : FVec F S1024 .f32) (main_arg16 : FVec F S1024x1 .f32) (main_arg17 : FVec F S1024 .f32) (main_arg18 : FVec F S_ .f32) (main_arg19 : FVec F S_ .f32) (main_arg20 : FVec F S_ .f32) (main_arg21 : FVec F S_ .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1 .f32 := Host.absf main_arg16
  let main_cst_30 : FVec F S_ .f32 := constant S_ .f32 0x7F800000#32
  let main_v80 : FVec F S1024x1 .f32 := broadcastInDim S1024x1 ![] bcast_S_S1024x1 main_cst_30
  let main_v81 : IVec S1024x1 1 := cmpf .olt main_v79 main_v80
  let main_c_31 : IVec S_ 1 := constantI S_ 1 1#1
  let main_v82 : IVec S_ 1 := (fun x v => Host.reduce IntOp.andi x v reducesTo_S1024x1_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024 .f32) (main_arg12 : FVec F S1024x64 .f32) (main_arg13 : FVec F S1024 .f32) (main_arg14 : FVec F S1024x1024 .f32) (main_arg15 : FVec F S1024 .f32) (main_arg16 : FVec F S1024x1 .f32) (main_arg17 : FVec F S1024 .f32) (main_arg18 : FVec F S_ .f32) (main_arg19 : FVec F S_ .f32) (main_arg20 : FVec F S_ .f32) (main_arg21 : FVec F S_ .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x64 .f32 := Host.absf main_arg12
  let main_cst_22 : FVec F S_ .f32 := constant S_ .f32 0x7F800000#32
  let main_v60 : FVec F S1024x64 .f32 := broadcastInDim S1024x64 ![] bcast_S_S1024x64 main_cst_22
  let main_v61 : IVec S1024x64 1 := cmpf .olt main_v59 main_v60
  let main_c_23 : IVec S_ 1 := constantI S_ 1 1#1
  let main_v62 : IVec S_ 1 := (fun x v => Host.reduce IntOp.andi x v reducesTo_S1024x64_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S1024x64 .f32) (main_arg9 : FVec F S1024 .f32) (main_arg10 : FVec F S1024x1024 .f32) (main_arg11 : FVec F S1024 .f32) (main_arg12 : FVec F S1024x64 .f32) (main_arg13 : FVec F S1024 .f32) (main_arg14 : FVec F S1024x1024 .f32) (main_arg15 : FVec F S1024 .f32) (main_arg16 : FVec F S1024x1 .f32) (main_arg17 : FVec F S1024 .f32) (main_arg18 : FVec F S_ .f32) (main_arg19 : FVec F S_ .f32) (main_arg20 : FVec F S_ .f32) (main_arg21 : FVec F S_ .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x64 .f32 := Host.absf main_arg8
  let main_cst_14 : FVec F S_ .f32 := constant S_ .f32 0x7F800000#32
  let main_v40 : FVec F S1024x64 .f32 := broadcastInDim S1024x64 ![] bcast_S_S1024x64 main_cst_14
  let main_v41 : IVec S1024x64 1 := cmpf .olt main_v39 main_v40
  let main_c_15 : IVec S_ 1 := constantI S_ 1 1#1
  let main_v42 : IVec S_ 1 := (fun x v => Host.reduce IntOp.andi x v reducesTo_S1024x64_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S1024x64 .f32) (main_arg5 : FVec F S1024 .f32) (main_arg6 : FVec F S1024x1024 .f32) (main_arg7 : FVec F S1024 .f32) (main_arg8 : FVec F S1024x64 .f32) (main_arg9 : FVec F S1024 .f32) (main_arg10 : FVec F S1024x1024 .f32) (main_arg11 : FVec F S1024 .f32) (main_arg12 : FVec F S1024x64 .f32) (main_arg13 : FVec F S1024 .f32) (main_arg14 : FVec F S1024x1024 .f32) (main_arg15 : FVec F S1024 .f32) (main_arg16 : FVec F S1024x1 .f32) (main_arg17 : FVec F S1024 .f32) (main_arg18 : FVec F S_ .f32) (main_arg19 : FVec F S_ .f32) (main_arg20 : FVec F S_ .f32) (main_arg21 : FVec F S_ .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S8192x64 .f32) (main_arg1 : FVec F S8192x1024 .f32) (main_arg2 : FVec F S8192 .f32) (main_arg3 : FVec F S8192 .f32) (main_arg4 : FVec F S1024x64 .f32) (main_arg5 : FVec F S1024 .f32) (main_arg6 : FVec F S1024x1024 .f32) (main_arg7 : FVec F S1024 .f32) (main_arg8 : FVec F S1024x64 .f32) (main_arg9 : FVec F S1024 .f32) (main_arg10 : FVec F S1024x1024 .f32) (main_arg11 : FVec F S1024 .f32) (main_arg12 : FVec F S1024x64 .f32) (main_arg13 : FVec F S1024 .f32) (main_arg14 : FVec F S1024x1024 .f32) (main_arg15 : FVec F S1024 .f32) (main_arg16 : FVec F S1024x1 .f32) (main_arg17 : FVec F S1024 .f32) (main_arg18 : FVec F S_ .f32) (main_arg19 : FVec F S_ .f32) (main_arg20 : FVec F S_ .f32) (main_arg21 : FVec F S_ .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S8192x64 : Shape := ⟨2, ![8192, 64]⟩
abbrev S8192x1024 : Shape := ⟨2, ![8192, 1024]⟩
abbrev S8192 : Shape := ⟨1, ![8192]⟩
abbrev S1024x64 : Shape := ⟨2, ![1024, 64]⟩
abbrev S1024 : Shape := ⟨1, ![1024]⟩
abbrev S1024x1024 : Shape := ⟨2, ![1024, 1024]⟩
abbrev S1024x1 : Shape := ⟨2, ![1024, 1]⟩
abbrev S_ : Shape := ⟨0, ![]⟩
abbrev S8192x1 : Shape := ⟨2, ![8192, 1]⟩
abbrev S64x1024 : Shape := ⟨2, ![64, 1024]⟩
abbrev S64x3072 : Shape := ⟨2, ![64, 3072]⟩
abbrev S1024x2048 : Shape := ⟨2, ![1024, 2048]⟩
abbrev S1x1024 : Shape := ⟨2, ![1, 1024]⟩
abbrev S512x64 : Shape := ⟨2, ![512, 64]⟩
abbrev S512x1024 : Shape := ⟨2, ![512, 1024]⟩
abbrev S512x1 : Shape := ⟨2, ![512, 1]⟩
abbrev S512x3072 : Shape := ⟨2, ![512, 3072]⟩
abbrev S512x2048 : Shape := ⟨2, ![512, 2048]⟩

abbrev nBuf : Space → Nat
  | .hbm => 88
  | .vmem => 16
  | .smem => 0
  | _ => 0

abbrev bufTy : (tb : Table) → Fin (tcTables nBuf tb) → BufTy
  | .hbm, ⟨0, _⟩ => ⟨S8192x64, .f32⟩
  | .hbm, ⟨1, _⟩ => ⟨S8192x1024, .f32⟩
  | .hbm, ⟨2, _⟩ => ⟨S8192, .f32⟩
  | .hbm, ⟨3, _⟩ => ⟨S8192, .f32⟩
  | .hbm, ⟨4, _⟩ => ⟨S1024x64, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x64, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x64, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1, .f32⟩
  | .hbm, ⟨17, _⟩ => ⟨S1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192x1, .f32⟩
  | .hbm, ⟨60, _⟩ => ⟨S8192, .f32⟩
  | .hbm, ⟨61, _⟩ => ⟨S8192, .f32⟩
  | .hbm, ⟨62, _⟩ => ⟨S8192x1, .f32⟩
  | .hbm, ⟨63, _⟩ => ⟨S64x1024, .f32⟩
  | .hbm, ⟨64, _⟩ => ⟨S64x1024, .f32⟩
  | .hbm, ⟨65, _⟩ => ⟨S64x1024, .f32⟩
  | .hbm, ⟨66, _⟩ => ⟨S64x3072, .f32⟩
  | .hbm, ⟨67, _⟩ => ⟨S64x3072, .bf16⟩
  | .hbm, ⟨68, _⟩ => ⟨S1024x1024, .f32⟩
  | .hbm, ⟨69, _⟩ => ⟨S1024x1024, .f32⟩
  | .hbm, ⟨70, _⟩ => ⟨S1024x2048, .f32⟩
  | .hbm, ⟨71, _⟩ => ⟨S1024x2048, .bf16⟩
  | .hbm, ⟨72, _⟩ => ⟨S1024x1024, .f32⟩
  | .hbm, ⟨73, _⟩ => ⟨S1024x1024, .bf16⟩
  | .hbm, ⟨74, _⟩ => ⟨S1024, .f32⟩
  | .hbm, ⟨75, _⟩ => ⟨S1x1024, .f32⟩
  | .hbm, ⟨76, _⟩ => ⟨S1024, .f32⟩
  | .hbm, ⟨77, _⟩ => ⟨S1x1024, .f32⟩
  | .hbm, ⟨78, _⟩ => ⟨S1024, .f32⟩
  | .hbm, ⟨79, _⟩ => ⟨S1x1024, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1x1024, .f32⟩
  | .hbm, ⟨84, _⟩ => ⟨S1024, .f32⟩
  | .hbm, ⟨85, _⟩ => ⟨S1024, .f32⟩
  | .hbm, ⟨86, _⟩ => ⟨S1x1024, .f32⟩
  | .hbm, ⟨87, _⟩ => ⟨S8192x1024, .f32⟩
  | .local _ .vmem, ⟨0, _⟩ => ⟨S512x64, .f32⟩
  | .local _ .vmem, ⟨1, _⟩ => ⟨S512x64, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S64x3072, .bf16⟩
  | .local _ .vmem, ⟨7, _⟩ => ⟨S1024x2048, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst_0 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_cst_4 : Ref sig .tc := ⟨.hbm, 47, rfl⟩
abbrev main_v10 : Ref sig .tc := ⟨.hbm, 48, rfl⟩
abbrev main_cst_5 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S8192 : S_.BroadcastsInDim S8192 (![] : Fin 0 → Fin S8192.rank)
  slices_S8192x64_S8192x1_0_0 : S8192x64.Slices ![0, 0] S8192x1
  shapeCasts_S8192x1_S8192 : S8192x1.ShapeCasts S8192
  shapeCasts_S8192_S8192x1 : S8192.ShapeCasts S8192x1
  transposes_S1024x64_S64x1024_1_0 : S1024x64.Transposes [1, 0] S64x1024
  concatenates_S64x1024_S64x1024_S64x1024_S64x3072_d1 : Shape.Concatenates [S64x1024, S64x1024, S64x1024] S64x3072 1
  bitsLt_bf16_f32 : FTy.bits .bf16 < FTy.bits .f32
  transposes_S1024x1024_S1024x1024_1_0 : S1024x1024.Transposes [1, 0] S1024x1024
  concatenates_S1024x1024_S1024x1024_S1024x2048_d1 : Shape.Concatenates [S1024x1024, S1024x1024] S1024x2048 1
  shapeCasts_S1024_S1x1024 : S1024.ShapeCasts S1x1024
  shapeCasts_S1024x1_S1024 : S1024x1.ShapeCasts S1024
  bcast_S_S1024 : S_.BroadcastsInDim S1024 (![] : Fin 0 → Fin S1024.rank)
  inb_S512x64_S512x64_0_0 : ∀ a, (![0, 0] : Fin 2 → Nat) a + S512x64.size a ≤ S512x64.size a
  h_S512x64 : 0 < S512x64.numel
  inb_S512x1024_S512x1024_0_0 : ∀ a, (![0, 0] : Fin 2 → Nat) a + S512x1024.size a ≤ S512x1024.size a
  h_S512x1024 : 0 < S512x1024.numel
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S512x3072_o0_0_S512x1024 : S512x3072.Slices ![0, 0] S512x1024
  slices_S512x2048_o0_0_S512x1024 : S512x2048.Slices ![0, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x3072_o0_1024_S512x1024 : S512x3072.Slices ![0, 1024] S512x1024
  slices_S512x2048_o0_1024_S512x1024 : S512x2048.Slices ![0, 1024] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x3072_o0_2048_S512x1024 : S512x3072.Slices ![0, 2048] S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  dot_S512x64_S64x3072_S512x3072_1_0_0_1_n_n_wf : DotDims.WF S512x64 S64x3072 S512x3072 [1] [0] [0] [1] [] []
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3072.size a ≤ S64x3072.size a
  hwx0_3 : ∀ i : grid0.Coords, EltTy.bits .bf16 = 32 ∨ (Rect.block (s := S64x3072) S64x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S8192x1024.size a
  hwx0_11 : ∀ i : grid0.Coords, EltTy.bits .f32 = 32 ∨ (Rect.block (s := S8192x1024) S512x1024.size (cc0_transform_11 i) (hinb0_11 i)).WholeWords (EltTy.packing .f32)

variable [Facts₀]

def dot_S512x64_S64x3072_S512x3072_1_0_0_1_n_n : DotDims S512x64 S64x3072 S512x3072 where
  lhsContracting := [1]
  rhsContracting := [0]
  lhsNonContracting := [0]
  rhsNonContracting := [1]
  lhsBatch := []
  rhsBatch := []
  wf := dot_S512x64_S64x3072_S512x3072_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S64x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v48) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x1024 : Shape := ⟨2, ![8192, 1024]⟩
abbrev S8192 : Shape := ⟨1, ![8192]⟩
abbrev S1024x64 : Shape := ⟨2, ![1024, 64]⟩
abbrev S1024 : Shape := ⟨1, ![1024]⟩
abbrev S1024x1024 : Shape := ⟨2, ![1024, 1024]⟩
abbrev S1024x1 : Shape := ⟨2, ![1024, 1]⟩
abbrev S_ : Shape := ⟨0, ![]⟩
abbrev S8192x1 : Shape := ⟨2, ![8192, 1]⟩
abbrev S1x1024 : Shape := ⟨2, ![1, 1024]⟩
abbrev S64x1024 : Shape := ⟨2, ![64, 1024]⟩

abbrev nBuf : Space → Nat
  | .hbm => 132
  | .vmem => 0
  | .smem => 0
  | _ => 0

abbrev hbmTy0_0 (i : Nat) : BufTy := match i % 128 with
  | 0 => ⟨S8192x64, .f32⟩
  | 1 => ⟨S8192x1024, .f32⟩
  | 2 => ⟨S8192, .f32⟩
  | 3 => ⟨S8192, .f32⟩
  | 4 => ⟨S1024x64, .f32⟩
  | 5 => ⟨S1024, .f32⟩
  | 6 => ⟨S1024x1024, .f32⟩
  | 7 => ⟨S1024, .f32⟩
  | 8 => ⟨S1024x64, .f32⟩
  | 9 => ⟨S1024, .f32⟩
  | 10 => ⟨S1024x1024, .f32⟩
  | 11 => ⟨S1024, .f32⟩
  | 12 => ⟨S1024x64, .f32⟩
  | 13 => ⟨S1024, .f32⟩
  | 14 => ⟨S1024x1024, .f32⟩
  | 15 => ⟨S1024, .f32⟩
  | 16 => ⟨S1024x1, .f32⟩
  | 17 => ⟨S1024, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192x1, .f32⟩
  | 60 => ⟨S1024, .f32⟩
  | 61 => ⟨S1x1024, .f32⟩
  | 62 => ⟨S8192x1024, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S64x1024, .f32⟩
  | 69 => ⟨S8192x1024, .f32⟩
  | 70 => ⟨S1x1024, .f32⟩
  | 71 => ⟨S8192x1024, .f32⟩
  | 72 => ⟨S8192x1024, .f32⟩
  | 73 => ⟨S1024x1024, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S64x1024, .f32⟩
  | 88 => ⟨S8192x1024, .f32⟩
  | 89 => ⟨S1x1024, .f32⟩
  | 90 => ⟨S8192x1024, .f32⟩
  | 91 => ⟨S8192x1024, .f32⟩
  | 92 => ⟨S1024x1024, .f32⟩
  | 93 => ⟨S8192x1024, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S64x1024, .f32⟩
  | 107 => ⟨S8192x1024, .f32⟩
  | 108 => ⟨S1x1024, .f32⟩
  | 109 => ⟨S8192x1024, .f32⟩
  | 110 => ⟨S8192x1024, .f32⟩
  | 111 => ⟨S8192x1024, .f32⟩
  | 112 => ⟨S1024x1024, .f32⟩
  | 113 => ⟨S8192x1024, .f32⟩
  | 114 => ⟨S8192x1024, .f32⟩
  | 115 => ⟨S1x1024, .f32⟩
  | 116 => ⟨S8192x1024, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x64, .f32⟩

abbrev hbmTy0_1 (i : Nat) : BufTy := match i % 128 with
  | 0 => ⟨S8192x1024, .f32⟩
  | 1 => ⟨S8192x1, .f32⟩
  | 2 => ⟨S8192, .f32⟩
  | 3 => ⟨S8192, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_v0 : Ref sig .tc := ⟨.hbm, 32, rfl⟩
abbrev main_cst : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_cst_0 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_cst_4 : Ref sig .tc := ⟨.hbm, 47, rfl⟩
abbrev main_v10 : Ref sig .tc := ⟨.hbm, 48, rfl⟩
abbrev main_cst_5 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_6 : Ref sig .tc := ⟨.hbm, 81, rfl⟩
abbrev main_v42 : Ref sig .tc := ⟨.hbm, 82, rfl⟩
abbrev main_v43 : Ref sig .tc := ⟨.hbm, 83, rfl⟩
abbrev main_cst_7 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_8 : Ref sig .tc := ⟨.hbm, 100, rfl⟩
abbrev main_v59 : Ref sig .tc := ⟨.hbm, 101, rfl⟩
abbrev main_v60 : Ref sig .tc := ⟨.hbm, 102, rfl⟩
abbrev main_cst_9 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_10 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S1024x1_S1024 : S1024x1.ShapeCasts S1024
  bcast_S1024_S1x1024_1 : S1024.BroadcastsInDim S1x1024 (![1] : Fin 1 → Fin S1x1024.rank)
  bcast_S8192x1_S8192x1024_0_1 : S8192x1.BroadcastsInDim S8192x1024 (![0, 1] : Fin 2 → Fin S8192x1024.rank)
  bcast_S1x1024_S8192x1024_0_1 : S1x1024.BroadcastsInDim S8192x1024 (![0, 1] : Fin 2 → Fin S8192x1024.rank)
  transposes_S1024x64_S64x1024_1_0 : S1024x64.Transposes [1, 0] S64x1024
  transposes_S1024x1024_S1024x1024_1_0 : S1024x1024.Transposes [1, 0] S1024x1024
  bcast_S_S8192x1024 : S_.BroadcastsInDim S8192x1024 (![] : Fin 0 → Fin S8192x1024.rank)
  slices_S8192x64_S8192x1_0_0 : S8192x64.Slices ![0, 0] S8192x1
  shapeCasts_S8192x1_S8192 : S8192x1.ShapeCasts S8192
  dot_S8192x64_S64x1024_S8192x1024_1_0_0_1_n_n_wf : DotDims.WF S8192x64 S64x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.KFrame.lean ====
/-
  The frame of the gated-recurrent-cell program `Kernel`, at any float instance: every weakly fair execution of
  @main terminates without a fault and leaves the twenty-two argument arrays as launched; and, for the value
  claims, each array the one pallas_call touches is named after the run.

  @main is sixty-five host operations (the variance recurrence, the transposed and joined weight matrices, the
  summed biases, the scaled variance weights) followed by one pallas_call on a grid of sixteen points.  The call
  has twelve windows: the input rows `x` (block `[512, 64]` of row tile `t`), the state rows `h` (`[512, 1024]`),
  the variance column (`[512, 1]`), eight whole-array windows fetched once (three weight matrices and five one-row
  vectors), and the output rows (`[512, 1024]`, written back at every point).  The body loads every input
  window whole, computes, and stores the output window whole; it keeps nothing between points.  So the proof data
  says: after the body at point `t` every input buffer still holds its block and the output buffer holds the one
  stored value, a function of the eleven input blocks.
-/
import proofs.«158569_j83605833383957_2_alg».proof.Proof.Gen.Kernel.Launch
import proofs.«158569_j83605833383957_2_alg».proof.Proof.Gen.Kernel.Skeleton
import proofs.«158569_j83605833383957_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two stretches of host operations. -/
abbrev V (c : Dev nD) (b : Ref sig .tc) : Buf (Elt F) ((c : Thread nD τ).loc b) :=
  StableHlo.after (List.flatten [hostOps0, hostOps0_1]) (fun b => m (c, b)) b

/-- No host operation of the first stretch allocates. -/
theorem hostOps0_fresh : (hostOps0 : List (HloOp τ sig (Elt F))).Forall fun op => op.fresh = ∅ := by
  simp only [List.Forall]; repeat' constructor
/-- No host operation of the second stretch allocates (the three-operand join included). -/
theorem hostOps0_1_fresh : (hostOps0_1 : List (HloOp τ sig (Elt F))).Forall fun op => op.fresh = ∅ := by
  simp only [List.Forall]; repeat' constructor

/-- @main is the two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- A buffer no host operation before the region writes is found as launched: every operation writes its one
    result buffer, and an argument is none of them. -/
theorem V_arg (c : Dev nD) (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11 ∨ b = main_arg12 ∨ b = main_arg13
      ∨ b = main_arg14 ∨ b = main_arg15 ∨ b = main_arg16 ∨ b = main_arg17 ∨ b = main_arg18 ∨ b = main_arg19
      ∨ b = main_arg20 ∨ b = main_arg21) :
    V m c b = m ((c : Thread nD τ).loc b) :=
  StableHlo.after_of_forall_not_mem (b := Proc.devRef .tc b) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    rcases hb with h | h | h | h | h | h | h | h | h | h | h | h | h | h | h | h | h | h | h | h | h | h <;> subst h <;>
      (repeat' apply And.intro) <;> exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, the
    block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, the
    block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: unfetched, the
    block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: unfetched, the
    block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: unfetched, the
    block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: unfetched, the
    block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: unfetched, the
    block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: unfetched, the
    block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: unfetched, the
    block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: unfetched, the
    block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the two argument arrays the call stages (`x`, `h`) are read off the proof data (an input
    window's array is never written), every other argument is a buffer the call does not touch; each is then as
    launched, no host operation having written it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_arg m c main_arg0 (by simp)))),
      ((h c).1 1).trans (((dats 0 c).arrAt_in 1 rfl _).trans ((hA c 1).trans (V_arg m c main_arg1 (by simp)))),
      ((h c).2 main_arg2 (Pipeline.mem_restRefs_of main_arg2 (by decide) (by decide))).trans (V_arg m c main_arg2 (by simp)),
      ((h c).2 main_arg3 (Pipeline.mem_restRefs_of main_arg3 (by decide) (by decide))).trans (V_arg m c main_arg3 (by simp)),
      ((h c).2 main_arg4 (Pipeline.mem_restRefs_of main_arg4 (by decide) (by decide))).trans (V_arg m c main_arg4 (by simp)),
      ((h c).2 main_arg5 (Pipeline.mem_restRefs_of main_arg5 (by decide) (by decide))).trans (V_arg m c main_arg5 (by simp)),
      ((h c).2 main_arg6 (Pipeline.mem_restRefs_of main_arg6 (by decide) (by decide))).trans (V_arg m c main_arg6 (by simp)),
      ((h c).2 main_arg7 (Pipeline.mem_restRefs_of main_arg7 (by decide) (by decide))).trans (V_arg m c main_arg7 (by simp)),
      ((h c).2 main_arg8 (Pipeline.mem_restRefs_of main_arg8 (by decide) (by decide))).trans (V_arg m c main_arg8 (by simp)),
      ((h c).2 main_arg9 (Pipeline.mem_restRefs_of main_arg9 (by decide) (by decide))).trans (V_arg m c main_arg9 (by simp)),
      ((h c).2 main_arg10 (Pipeline.mem_restRefs_of main_arg10 (by decide) (by decide))).trans (V_arg m c main_arg10 (by simp)),
      ((h c).2 main_arg11 (Pipeline.mem_restRefs_of main_arg11 (by decide) (by decide))).trans (V_arg m c main_arg11 (by simp)),
      ((h c).2 main_arg12 (Pipeline.mem_restRefs_of main_arg12 (by decide) (by decide))).trans (V_arg m c main_arg12 (by simp)),
      ((h c).2 main_arg13 (Pipeline.mem_restRefs_of main_arg13 (by decide) (by decide))).trans (V_arg m c main_arg13 (by simp)),
      ((h c).2 main_arg14 (Pipeline.mem_restRefs_of main_arg14 (by decide) (by decide))).trans (V_arg m c main_arg14 (by simp)),
      ((h c).2 main_arg15 (Pipeline.mem_restRefs_of main_arg15 (by decide) (by decide))).trans (V_arg m c main_arg15 (by simp)),
      ((h c).2 main_arg16 (Pipeline.mem_restRefs_of main_arg16 (by decide) (by decide))).trans (V_arg m c main_arg16 (by simp)),
      ((h c).2 main_arg17 (Pipeline.mem_restRefs_of main_arg17 (by decide) (by decide))).trans (V_arg m c main_arg17 (by simp)),
      ((h c).2 main_arg18 (Pipeline.mem_restRefs_of main_arg18 (by decide) (by decide))).trans (V_arg m c main_arg18 (by simp)),
      ((h c).2 main_arg19 (Pipeline.mem_restRefs_of main_arg19 (by decide) (by decide))).trans (V_arg m c main_arg19 (by simp)),
      ((h c).2 main_arg20 (Pipeline.mem_restRefs_of main_arg20 (by decide) (by decide))).trans (V_arg m c main_arg20 (by simp)),
      ((h c).2 main_arg21 (Pipeline.mem_restRefs_of main_arg21 (by decide) (by decide))).trans (V_arg m c main_arg21 (by simp))⟩) h

/-! ## The body's accesses -/

abbrev rX : Rect S512x64 := Rect.unit (s := S512x64) ![0, 0] S512x64.size inb_S512x64_S512x64_0_0
abbrev rH : Rect S512x1024 := Rect.unit (s := S512x1024) ![0, 0] S512x1024.size inb_S512x1024_S512x1024_0_0
abbrev rG : Rect S512x1 := Rect.unit (s := S512x1) ![0, 0] S512x1.size inb_S512x1_S512x1_0_0
abbrev rW : Rect S64x3072 := Rect.unit (s := S64x3072) ![0, 0] S64x3072.size inb_S64x3072_S64x3072_0_0
abbrev rU : Rect S1024x2048 := Rect.unit (s := S1024x2048) ![0, 0] S1024x2048.size inb_S1024x2048_S1024x2048_0_0
abbrev rUh : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in the output window's buffer -/

/-- The output buffer after the body, from the eleven input blocks: its one store, of the new state computed from
    the loaded blocks (the update gate, the candidate state, the constant one, then the final `tanh`). -/
def out0_11 (x0 : Vec F S512x64 .f32) (x1 : Vec F S512x1024 .f32) (x2 : Vec F S512x1 .f32) (x3 : Vec F S64x3072 .bf16)
    (x4 : Vec F S1024x2048 .bf16) (x5 : Vec F S1024x1024 .bf16) (x6 x7 x8 x9 x10 : Vec F S1x1024 .f32) : Vec F S512x1024 .f32 :=
  View.canon [⟨rH, k0_pay1 (View.ld x1 rH)
    (k0_pay4 (View.ld x0 rX) (View.ld x1 rH) (View.ld x3 rW) (View.ld x4 rU) (View.ld x6 rB))
    (k0_pay5 (View.ld x0 rX) (View.ld x1 rH) (View.ld x3 rW) (View.ld x4 rU) (View.ld x7 rB) (View.ld x5 rUh) (View.ld x8 rB))
    (k0_pay6 (F := F)) (View.ld x2 rG) (View.ld x9 rB) (View.ld x10 rB)⟩]

/-- The one store covers the buffer. -/
theorem cover0_11 (p0 : Vec F S512x1024 .f32) (y : S512x1024.Idx) :
    ∃ pc ∈ ([⟨rH, p0⟩] : List (View.Piece (Elt F) S512x1024 .f32)), y ∈ pc.1.set :=
  View.cover_of_tiled [⟨rH, p0⟩] S512x1024.size (by rfl) y

/-! ## The body's triple -/

set_option maxHeartbeats 1000000 in
/-- The kernel body on whole staging memrefs, the inputs' at contents `xW` and the output's at anything, runs to the
    continuation holding the inputs' as they were and the output's at `out0_11` of the inputs'. -/
theorem sound_kernel (c : Dev nD) (E : Set ℕ) (i : grid0.Coords)
    (arg1 : Memref sig .tc .vmem S512x64 .f32) (harg1 : arg1.IsWhole) (arg2 : Memref sig .tc .vmem S512x1024 .f32) (harg2 : arg2.IsWhole)
    (arg3 : Memref sig .tc .vmem S512x1 .f32) (harg3 : arg3.IsWhole) (arg4 : Memref sig .tc .vmem S64x3072 .bf16) (harg4 : arg4.IsWhole)
    (arg5 : Memref sig .tc .vmem S1024x2048 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S512x1024 .f32) (harg12 : arg12.IsWhole)
    (x0 : Vec F S512x64 .f32) (x1 : Vec F S512x1024 .f32) (x2 : Vec F S512x1 .f32) (x3 : Vec F S64x3072 .bf16)
    (x4 : Vec F S1024x2048 .bf16) (x5 : Vec F S1024x1024 .bf16) (x6 x7 x8 x9 x10 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E
          (cc0__garch_gru_kernel i arg1 harg1 arg2 harg2 arg3 harg3 arg4 harg4 arg5 harg5 arg6 harg6 arg7 harg7 arg8 harg8 arg9 harg9 arg10 harg10 arg11 harg11 arg12 harg12) K := by
  simp only [cc0__garch_gru_kernel_eq_skeleton]; unfold cc0__garch_gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of the pipeline on core `c`: the arrays as the region finds them; after the body at point `t` each
    input's buffer at its block and the output's at `out0_11` of the input blocks; the invariant the untouched scoped
    rest and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t
    = out0_11 (iblk m c 0 t) (iblk m c 1 t) (iblk m c 2 t) (iblk m c 3 t) (iblk m c 4 t) (iblk m c 5 t)
        (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.Kernel.Hand

end
-- ==== Proof.KIFrame.lean ====
/-
  The frame of the gated-recurrent-cell program `KernelIdeal`, at any float instance: every weakly fair execution of
  @main terminates without a fault and leaves the twenty-two argument arrays as launched; and, for the value
  claims, each array the one pallas_call touches is named after the run.

  @main is sixty-five host operations (the variance recurrence, the transposed and joined weight matrices, the
  summed biases, the scaled variance weights) followed by one pallas_call on a grid of sixteen points.  The call
  has twelve windows: the input rows `x` (block `[512, 64]` of row tile `t`), the state rows `h` (`[512, 1024]`),
  the variance column (`[512, 1]`), eight whole-array windows fetched once (three weight matrices and five one-row
  vectors), and the output rows (`[512, 1024]`, written back at every point).  The body loads every input
  window whole, computes, and stores the output window whole; it keeps nothing between points.  So the proof data
  says: after the body at point `t` every input buffer still holds its block and the output buffer holds the one
  stored value, a function of the eleven input blocks.
-/
import proofs.«158569_j83605833383957_2_alg».proof.Proof.Gen.KernelIdeal.Launch
import proofs.«158569_j83605833383957_2_alg».proof.Proof.Gen.KernelIdeal.Skeleton
import proofs.«158569_j83605833383957_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the two stretches of host operations. -/
abbrev V (c : Dev nD) (b : Ref sig .tc) : Buf (Elt F) ((c : Thread nD τ).loc b) :=
  StableHlo.after (List.flatten [hostOps0, hostOps0_1]) (fun b => m (c, b)) b

/-- No host operation of the first stretch allocates. -/
theorem hostOps0_fresh : (hostOps0 : List (HloOp τ sig (Elt F))).Forall fun op => op.fresh = ∅ := by
  simp only [List.Forall]; repeat' constructor
/-- No host operation of the second stretch allocates (the three-operand join included). -/
theorem hostOps0_1_fresh : (hostOps0_1 : List (HloOp τ sig (Elt F))).Forall fun op => op.fresh = ∅ := by
  simp only [List.Forall]; repeat' constructor

/-- @main is the two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- A buffer no host operation before the region writes is found as launched: every operation writes its one
    result buffer, and an argument is none of them. -/
theorem V_arg (c : Dev nD) (b : Ref sig .tc)
    (hb : b = main_arg0 ∨ b = main_arg1 ∨ b = main_arg2 ∨ b = main_arg3 ∨ b = main_arg4 ∨ b = main_arg5 ∨ b = main_arg6
      ∨ b = main_arg7 ∨ b = main_arg8 ∨ b = main_arg9 ∨ b = main_arg10 ∨ b = main_arg11 ∨ b = main_arg12 ∨ b = main_arg13
      ∨ b = main_arg14 ∨ b = main_arg15 ∨ b = main_arg16 ∨ b = main_arg17 ∨ b = main_arg18 ∨ b = main_arg19
      ∨ b = main_arg20 ∨ b = main_arg21) :
    V m c b = m ((c : Thread nD τ).loc b) :=
  StableHlo.after_of_forall_not_mem (b := Proc.devRef .tc b) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    rcases hb with h | h | h | h | h | h | h | h | h | h | h | h | h | h | h | h | h | h | h | h | h | h <;> subst h <;>
      (repeat' apply And.intro) <;> exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: unfetched, the
    block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: unfetched, the
    block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: unfetched, the
    block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: unfetched, the
    block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: unfetched, the
    block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: unfetched, the
    block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: unfetched, the
    block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: unfetched, the
    block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: unfetched, the
    block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: unfetched, the
    block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the two argument arrays the call stages (`x`, `h`) are read off the proof data (an input
    window's array is never written), every other argument is a buffer the call does not touch; each is then as
    launched, no host operation having written it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).1 0).trans (((dats 0 c).arrAt_in 0 rfl _).trans ((hA c 0).trans (V_arg m c main_arg0 (by simp)))),
      ((h c).1 1).trans (((dats 0 c).arrAt_in 1 rfl _).trans ((hA c 1).trans (V_arg m c main_arg1 (by simp)))),
      ((h c).2 main_arg2 (Pipeline.mem_restRefs_of main_arg2 (by decide) (by decide))).trans (V_arg m c main_arg2 (by simp)),
      ((h c).2 main_arg3 (Pipeline.mem_restRefs_of main_arg3 (by decide) (by decide))).trans (V_arg m c main_arg3 (by simp)),
      ((h c).2 main_arg4 (Pipeline.mem_restRefs_of main_arg4 (by decide) (by decide))).trans (V_arg m c main_arg4 (by simp)),
      ((h c).2 main_arg5 (Pipeline.mem_restRefs_of main_arg5 (by decide) (by decide))).trans (V_arg m c main_arg5 (by simp)),
      ((h c).2 main_arg6 (Pipeline.mem_restRefs_of main_arg6 (by decide) (by decide))).trans (V_arg m c main_arg6 (by simp)),
      ((h c).2 main_arg7 (Pipeline.mem_restRefs_of main_arg7 (by decide) (by decide))).trans (V_arg m c main_arg7 (by simp)),
      ((h c).2 main_arg8 (Pipeline.mem_restRefs_of main_arg8 (by decide) (by decide))).trans (V_arg m c main_arg8 (by simp)),
      ((h c).2 main_arg9 (Pipeline.mem_restRefs_of main_arg9 (by decide) (by decide))).trans (V_arg m c main_arg9 (by simp)),
      ((h c).2 main_arg10 (Pipeline.mem_restRefs_of main_arg10 (by decide) (by decide))).trans (V_arg m c main_arg10 (by simp)),
      ((h c).2 main_arg11 (Pipeline.mem_restRefs_of main_arg11 (by decide) (by decide))).trans (V_arg m c main_arg11 (by simp)),
      ((h c).2 main_arg12 (Pipeline.mem_restRefs_of main_arg12 (by decide) (by decide))).trans (V_arg m c main_arg12 (by simp)),
      ((h c).2 main_arg13 (Pipeline.mem_restRefs_of main_arg13 (by decide) (by decide))).trans (V_arg m c main_arg13 (by simp)),
      ((h c).2 main_arg14 (Pipeline.mem_restRefs_of main_arg14 (by decide) (by decide))).trans (V_arg m c main_arg14 (by simp)),
      ((h c).2 main_arg15 (Pipeline.mem_restRefs_of main_arg15 (by decide) (by decide))).trans (V_arg m c main_arg15 (by simp)),
      ((h c).2 main_arg16 (Pipeline.mem_restRefs_of main_arg16 (by decide) (by decide))).trans (V_arg m c main_arg16 (by simp)),
      ((h c).2 main_arg17 (Pipeline.mem_restRefs_of main_arg17 (by decide) (by decide))).trans (V_arg m c main_arg17 (by simp)),
      ((h c).2 main_arg18 (Pipeline.mem_restRefs_of main_arg18 (by decide) (by decide))).trans (V_arg m c main_arg18 (by simp)),
      ((h c).2 main_arg19 (Pipeline.mem_restRefs_of main_arg19 (by decide) (by decide))).trans (V_arg m c main_arg19 (by simp)),
      ((h c).2 main_arg20 (Pipeline.mem_restRefs_of main_arg20 (by decide) (by decide))).trans (V_arg m c main_arg20 (by simp)),
      ((h c).2 main_arg21 (Pipeline.mem_restRefs_of main_arg21 (by decide) (by decide))).trans (V_arg m c main_arg21 (by simp))⟩) h

/-! ## The body's accesses -/

abbrev rX : Rect S512x64 := Rect.unit (s := S512x64) ![0, 0] S512x64.size inb_S512x64_S512x64_0_0
abbrev rH : Rect S512x1024 := Rect.unit (s := S512x1024) ![0, 0] S512x1024.size inb_S512x1024_S512x1024_0_0
abbrev rG : Rect S512x1 := Rect.unit (s := S512x1) ![0, 0] S512x1.size inb_S512x1_S512x1_0_0
abbrev rW : Rect S64x3072 := Rect.unit (s := S64x3072) ![0, 0] S64x3072.size inb_S64x3072_S64x3072_0_0
abbrev rU : Rect S1024x2048 := Rect.unit (s := S1024x2048) ![0, 0] S1024x2048.size inb_S1024x2048_S1024x2048_0_0
abbrev rUh : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-! ## What the body leaves in the output window's buffer -/

/-- The output buffer after the body, from the eleven input blocks: its one store, of the new state computed from
    the loaded blocks (the update gate, the candidate state, the constant one, then the final `tanh`). -/
def out0_11 (x0 : Vec F S512x64 .f32) (x1 : Vec F S512x1024 .f32) (x2 : Vec F S512x1 .f32) (x3 : Vec F S64x3072 .bf16)
    (x4 : Vec F S1024x2048 .bf16) (x5 : Vec F S1024x1024 .bf16) (x6 x7 x8 x9 x10 : Vec F S1x1024 .f32) : Vec F S512x1024 .f32 :=
  View.canon [⟨rH, k0_pay1 (View.ld x1 rH)
    (k0_pay4 (View.ld x0 rX) (View.ld x1 rH) (View.ld x3 rW) (View.ld x4 rU) (View.ld x6 rB))
    (k0_pay5 (View.ld x0 rX) (View.ld x1 rH) (View.ld x3 rW) (View.ld x4 rU) (View.ld x7 rB) (View.ld x5 rUh) (View.ld x8 rB))
    (k0_pay6 (F := F)) (View.ld x2 rG) (View.ld x9 rB) (View.ld x10 rB)⟩]

/-- The one store covers the buffer. -/
theorem cover0_11 (p0 : Vec F S512x1024 .f32) (y : S512x1024.Idx) :
    ∃ pc ∈ ([⟨rH, p0⟩] : List (View.Piece (Elt F) S512x1024 .f32)), y ∈ pc.1.set :=
  View.cover_of_tiled [⟨rH, p0⟩] S512x1024.size (by rfl) y

/-! ## The body's triple -/

set_option maxHeartbeats 1000000 in
/-- The kernel body on whole staging memrefs, the inputs' at contents `xW` and the output's at anything, runs to the
    continuation holding the inputs' as they were and the output's at `out0_11` of the inputs'. -/
theorem sound_kernel (c : Dev nD) (E : Set ℕ) (i : grid0.Coords)
    (arg1 : Memref sig .tc .vmem S512x64 .f32) (harg1 : arg1.IsWhole) (arg2 : Memref sig .tc .vmem S512x1024 .f32) (harg2 : arg2.IsWhole)
    (arg3 : Memref sig .tc .vmem S512x1 .f32) (harg3 : arg3.IsWhole) (arg4 : Memref sig .tc .vmem S64x3072 .bf16) (harg4 : arg4.IsWhole)
    (arg5 : Memref sig .tc .vmem S1024x2048 .bf16) (harg5 : arg5.IsWhole) (arg6 : Memref sig .tc .vmem S1024x1024 .bf16) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S512x1024 .f32) (harg12 : arg12.IsWhole)
    (x0 : Vec F S512x64 .f32) (x1 : Vec F S512x1024 .f32) (x2 : Vec F S512x1 .f32) (x3 : Vec F S64x3072 .bf16)
    (x4 : Vec F S1024x2048 .bf16) (x5 : Vec F S1024x1024 .bf16) (x6 x7 x8 x9 x10 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out0_11 x0 x1 x2 x3 x4 x5 x6 x7 x8 x9 x10)) -∗ K ⟨⟩))
      ⊢ wp frame (wpE (defs₀ (F := F)) Variants.none c none) E
          (cc0__garch_gru_kernel i arg1 harg1 arg2 harg2 arg3 harg3 arg4 harg4 arg5 harg5 arg6 harg6 arg7 harg7 arg8 harg8 arg9 harg9 arg10 harg10 arg11 harg11 arg12 harg12) K := by
  simp only [cc0__garch_gru_kernel_eq_skeleton]; unfold cc0__garch_gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of the pipeline on core `c`: the arrays as the region finds them; after the body at point `t` each
    input's buffer at its block and the output's at `out0_11` of the input blocks; the invariant the untouched scoped
    rest and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t
    = out0_11 (iblk m c 0 t) (iblk m c 1 t) (iblk m c 2 t) (iblk m c 3 t) (iblk m c 4 t) (iblk m c 5 t)
        (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.KernelIdeal.Hand

end
-- ==== Proof.LibNary3.lean ====
/-
  A host operation with a literal family of three operands (a three-piece concatenation) leaves its result buffer at
  the operation's function of the three operands' contents, each read at its own buffer.  Stated so that a fold of host
  operations can go on rewriting under the three operands (under a bound index the buffer `![x, a, b] k` is no literal).
-/
import Idealize.ShloMosaic.Lib.StableHlo.Run

namespace Cert.LibNary3

open Idealize.ShloMosaic Idealize.ShloMosaic.StableHlo Idealize.SL.Sem

variable {τ : Topo} {sig : RefSig} {Val : EltTy → Type}

/-- The result buffer of a three-operand host operation holds the operation's function of the three operands' contents. -/
theorem nary3_result (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for `simp` on the operation alone. -/
theorem nary3_result' (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result x a b y f hxs hy F

end Cert.LibNary3
-- ==== Proof.KerHost.lean ====
/-
  What the host operations before the pallas_call leave in the arrays its windows stage, read entry by entry at the
  ideal instance, and the two results the host computes by itself.

  * the variance column `[8192, 1]` is the variance vector `g` (the same chain of operations as the reference's);
  * the joined weights `[64, 3072]` hold the transposes of the three input weight matrices side by side, and
    `[1024, 2048]` the transposes of the update and reset state weights; `[1024, 1024]` the transposed candidate weights
    (a change of float format is the identity on extended reals);
  * the three bias rows hold the sums of the two biases of their gate;
  * the two variance rows hold `γ·Wg` and `γ·Wgb`.
-/
import proofs.«158569_j83605833383957_2_alg».proof.Proof.KIFrame
import proofs.«158569_j83605833383957_2_alg».proof.Proof.LibNary3
import proofs.«158569_j83605833383957_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The fold of the host operations read at one buffer, as one rewriting pass. -/
macro "host_read" : tactic =>
  `(tactic| (dsimp only [Hand.V]
             simp only [hostOps0, hostOps0_1, List.flatten_cons, List.flatten_nil, List.append_nil, List.cons_append, List.nil_append]
             simp (disch := decide) only [after_cons, after_nil,
               nullary_result', unary_result', binary_result', ternary_result', reshape_result', Cert.LibNary3.nary3_result',
               nullary_result_ne', unary_result_ne', binary_result_ne', ternary_result_ne', reshape_result_ne', nary_result_ne']))

/-! ## The arrays as terms of the arguments -/

local notation "A[" c ", " b ", " S ", " φ "]" => (m (c, Proc.tc.devRef b) : FVec Ideal S φ)

theorem v36_eq (c : Dev nD) : (shapeCast S1x1024 (addf (F := Ideal) A[c, main_arg5, S1024, .f32] A[c, main_arg7, S1024, .f32]) shapeCasts_S1024_S1x1024 : FVec Ideal S1x1024 .f32)
    = V m c main_v36 := by
  symm; host_read; rfl
theorem v38_eq (c : Dev nD) : (shapeCast S1x1024 (addf (F := Ideal) A[c, main_arg9, S1024, .f32] A[c, main_arg11, S1024, .f32]) shapeCasts_S1024_S1x1024 : FVec Ideal S1x1024 .f32)
    = V m c main_v38 := by
  symm; host_read; rfl
theorem v40_eq (c : Dev nD) : (shapeCast S1x1024 (addf (F := Ideal) A[c, main_arg13, S1024, .f32] A[c, main_arg15, S1024, .f32]) shapeCasts_S1024_S1x1024 : FVec Ideal S1x1024 .f32)
    = V m c main_v40 := by
  symm; host_read; rfl
theorem v44_eq (c : Dev nD) : (shapeCast S1x1024 (mulf (F := Ideal) (broadcastInDim S1024 ![] bcast_S_S1024 A[c, main_arg21, S_, .f32])
        (shapeCast S1024 A[c, main_arg16, S1024x1, .f32] shapeCasts_S1024x1_S1024 : FVec Ideal S1024 .f32)) shapeCasts_S1024_S1x1024 : FVec Ideal S1x1024 .f32)
    = V m c main_v44 := by
  symm; host_read; rfl
theorem v47_eq (c : Dev nD) : (shapeCast S1x1024 (mulf (F := Ideal) (broadcastInDim S1024 ![] bcast_S_S1024 A[c, main_arg21, S_, .f32])
        A[c, main_arg17, S1024, .f32]) shapeCasts_S1024_S1x1024 : FVec Ideal S1x1024 .f32)
    = V m c main_v47 := by
  symm; host_read; rfl
theorem v34_eq (c : Dev nD) : (truncf (F := Ideal) .bf16 (transpose S1024x1024 [1, 0] A[c, main_arg14, S1024x1024, .f32] transposes_S1024x1024_S1024x1024_1_0 : FVec Ideal S1024x1024 .f32) bitsLt_bf16_f32 : FVec Ideal S1024x1024 .bf16)
    = V m c main_v34 := by
  symm; host_read
/-- The two transposed state weights, side by side. -/
abbrev ucatPieces (c : Dev nD) : List ((s : Shape) × (s.Idx → EReal)) :=
  [⟨S1024x1024, (transpose S1024x1024 [1, 0] A[c, main_arg6, S1024x1024, .f32] transposes_S1024x1024_S1024x1024_1_0 : FVec Ideal S1024x1024 .f32)⟩,
   ⟨S1024x1024, (transpose S1024x1024 [1, 0] A[c, main_arg10, S1024x1024, .f32] transposes_S1024x1024_S1024x1024_1_0 : FVec Ideal S1024x1024 .f32)⟩]

theorem v32_eq (c : Dev nD) : (truncf (F := Ideal) .bf16 (concatenate S1024x2048 1 (ucatPieces m c)
        concatenates_S1024x1024_S1024x1024_S1024x2048_d1 : FVec Ideal S1024x2048 .f32) bitsLt_bf16_f32 : FVec Ideal S1024x2048 .bf16)
    = V m c main_v32 := by
  symm; host_read; rfl
/-- The three transposed input weights, side by side. -/
abbrev wcatPieces (c : Dev nD) : List ((s : Shape) × (s.Idx → EReal)) :=
  [⟨S64x1024, (transpose S64x1024 [1, 0] A[c, main_arg4, S1024x64, .f32] transposes_S1024x64_S64x1024_1_0 : FVec Ideal S64x1024 .f32)⟩,
   ⟨S64x1024, (transpose S64x1024 [1, 0] A[c, main_arg8, S1024x64, .f32] transposes_S1024x64_S64x1024_1_0 : FVec Ideal S64x1024 .f32)⟩,
   ⟨S64x1024, (transpose S64x1024 [1, 0] A[c, main_arg12, S1024x64, .f32] transposes_S1024x64_S64x1024_1_0 : FVec Ideal S64x1024 .f32)⟩]

theorem v28_eq (c : Dev nD) : (truncf (F := Ideal) .bf16 (concatenate S64x3072 1 (wcatPieces m c)
        concatenates_S64x1024_S64x1024_S64x1024_S64x3072_d1 : FVec Ideal S64x3072 .f32) bitsLt_bf16_f32 : FVec Ideal S64x3072 .bf16)
    = V m c main_v28 := by
  symm; host_read; rfl

set_option maxHeartbeats 4000000 in
/-- The variance vector is computed by the same chain of operations as the reference's. -/
theorem v19_eq (c : Dev nD) : Cert.ReferenceIdeal.Read.val_main_v19 (F := Ideal) A[c, main_arg2, S8192, .f32] A[c, main_arg3, S8192, .f32] A[c, main_arg18, S_, .f32] A[c, main_arg19, S_, .f32] A[c, main_arg20, S_, .f32]
    = V m c main_v19 := by
  symm; host_read; rfl

/-! ## The arrays read at an entry -/

set_option quotPrecheck false in
local notation "arg[" c ", " b "]" => m ((c : Thread nD τ).loc b)

/-- An argument array read as a function of its index into the extended reals. -/
local notation "T[" x ", " S "]" => (@id (Shape.Idx S → EReal) x)

set_option maxHeartbeats 4000000 in
/-- The variance column is the variance vector laid as a column. -/
theorem v23_eq (c : Dev nD) : (shapeCast S8192x1 (Cert.ReferenceIdeal.Read.val_main_v19 (F := Ideal) A[c, main_arg2, S8192, .f32] A[c, main_arg3, S8192, .f32] A[c, main_arg18, S_, .f32] A[c, main_arg19, S_, .f32] A[c, main_arg20, S_, .f32]) shapeCasts_S8192_S8192x1 : FVec Ideal S8192x1 .f32)
    = V m c main_v23 := by
  symm; host_read; rfl

/-- The variance column at row `i` is the variance vector at `i`. -/
theorem col_g (c : Dev nD) (i : Fin 8192) :
    (V m c main_v23 : S8192x1.Idx → EReal) (ix2 i (0 : Fin 1))
      = Cert.ReferenceIdeal.Read.val_main_v19 (F := Ideal) arg[c, main_arg2] arg[c, main_arg3] arg[c, main_arg18] arg[c, main_arg19] arg[c, main_arg20] (ix1 i) := by
  rw [← v23_eq]
  exact shapeCast_apply _ _ (ix2 i (0 : Fin 1)) (ix1 i) (by
    rw [Shape.rowMajor_val_two, Shape.rowMajor_val_one]; show i.val = i.val * 1 + 0; omega)

/-- A summed bias row at column `q`. -/
theorem bias_z (c : Dev nD) (q : Fin 1024) : (V m c main_v36 : S1x1024.Idx → EReal) (ix2 (0 : Fin 1) q)
    = T[arg[c, main_arg5], S1024] (ix1 q) + T[arg[c, main_arg7], S1024] (ix1 q) := by
  rw [← v36_eq]; exact shapeCast_a_1a_apply _ _ 0 q
theorem bias_r (c : Dev nD) (q : Fin 1024) : (V m c main_v38 : S1x1024.Idx → EReal) (ix2 (0 : Fin 1) q)
    = T[arg[c, main_arg9], S1024] (ix1 q) + T[arg[c, main_arg11], S1024] (ix1 q) := by
  rw [← v38_eq]; exact shapeCast_a_1a_apply _ _ 0 q
theorem bias_h (c : Dev nD) (q : Fin 1024) : (V m c main_v40 : S1x1024.Idx → EReal) (ix2 (0 : Fin 1) q)
    = T[arg[c, main_arg13], S1024] (ix1 q) + T[arg[c, main_arg15], S1024] (ix1 q) := by
  rw [← v40_eq]; exact shapeCast_a_1a_apply _ _ 0 q

/-- The scalar γ spread over a vector reads γ everywhere. -/
theorem spread (γ : S_.Idx → EReal) (q : Fin 1024) :
    (broadcastInDim S1024 ![] bcast_S_S1024 : (S_.Idx → EReal) → S1024.Idx → EReal) γ (ix1 q) = γ ix0 :=
  broadcastInDim_apply _ bcast_S_S1024 γ (ix1 q) ix0 (fun a => a.elim0)

/-- The scaled variance weight row at column `q` is `γ·Wg q`. -/
theorem row_wg (c : Dev nD) (q : Fin 1024) : (V m c main_v44 : S1x1024.Idx → EReal) (ix2 (0 : Fin 1) q)
    = T[arg[c, main_arg21], S_] ix0 * T[arg[c, main_arg16], S1024x1] (ix2 q (0 : Fin 1)) := by
  rw [← v44_eq]
  refine (shapeCast_a_1a_apply _ _ 0 q).trans ?_
  refine (congrArg₂ (· * ·) (spread _ q) (shapeCast_apply _ _ (ix1 q) (ix2 q (0 : Fin 1)) ?_))
  rw [Shape.rowMajor_val_two, Shape.rowMajor_val_one]; show q.val * 1 + 0 = q.val; omega

/-- The scaled variance bias row at column `q` is `γ·Wgb q`. -/
theorem row_wgb (c : Dev nD) (q : Fin 1024) : (V m c main_v47 : S1x1024.Idx → EReal) (ix2 (0 : Fin 1) q)
    = T[arg[c, main_arg21], S_] ix0 * T[arg[c, main_arg17], S1024] (ix1 q) := by
  rw [← v47_eq]
  refine (shapeCast_a_1a_apply _ _ 0 q).trans ?_
  exact congrArg (· * _) (spread _ q)

/-- The transposed candidate weights. -/
theorem uh_t (c : Dev nD) (k q : Fin 1024) : (V m c main_v34 : S1024x1024.Idx → EReal) (ix2 k q)
    = T[arg[c, main_arg14], S1024x1024] (ix2 q k) := by
  rw [← v34_eq]; exact transpose_ix2_apply _ _ k q

/-- The joined state weights: columns `0 … 1023` the update gate's, `1024 … 2047` the reset gate's. -/
theorem ucat_z (c : Dev nD) (k q : Fin 1024) (q' : Fin 2048) (hq : q'.val = q.val) : (V m c main_v32 : S1024x2048.Idx → EReal) (ix2 k q')
    = T[arg[c, main_arg6], S1024x1024] (ix2 q k) := by
  rw [← v32_eq]
  have hC : Shape.Concatenates ((ucatPieces m c).map (·.1)) S1024x2048 (1 : Fin 2) := concatenates_S1024x1024_S1024x1024_S1024x2048_d1
  refine (concatenate_apply_piece (t := S1024x2048) (1 : Fin 2) (ucatPieces m c) hC (ix2 k q') 0 (by show 0 < 2; omega) S1024x1024 _ rfl rfl 0 rfl
    (ix2 k q) (fun b hb => ?_) ?_).trans (transpose_ix2_apply _ _ k q)
  · match b with
    | ⟨0, _⟩ => rfl
    | ⟨1, _⟩ => exact absurd rfl hb
  · show 0 + q.val = q'.val; omega
theorem ucat_r (c : Dev nD) (k q : Fin 1024) (q' : Fin 2048) (hq : q'.val = 1024 + q.val) : (V m c main_v32 : S1024x2048.Idx → EReal) (ix2 k q')
    = T[arg[c, main_arg10], S1024x1024] (ix2 q k) := by
  rw [← v32_eq]
  have hC : Shape.Concatenates ((ucatPieces m c).map (·.1)) S1024x2048 (1 : Fin 2) := concatenates_S1024x1024_S1024x1024_S1024x2048_d1
  refine (concatenate_apply_piece (t := S1024x2048) (1 : Fin 2) (ucatPieces m c) hC (ix2 k q') 1 (by show 1 < 2; omega) S1024x1024 _ rfl rfl 1024 rfl
    (ix2 k q) (fun b hb => ?_) ?_).trans (transpose_ix2_apply _ _ k q)
  · match b with
    | ⟨0, _⟩ => rfl
    | ⟨1, _⟩ => exact absurd rfl hb
  · show 1024 + q.val = q'.val; omega

/-- The joined input weights: columns `0 … 1023` the update gate's, `1024 … 2047` the reset gate's, `2048 … 3071` the
    candidate's. -/
theorem wcat_z (c : Dev nD) (k : Fin 64) (q : Fin 1024) (q' : Fin 3072) (hq : q'.val = q.val) : (V m c main_v28 : S64x3072.Idx → EReal) (ix2 k q')
    = T[arg[c, main_arg4], S1024x64] (ix2 q k) := by
  rw [← v28_eq]
  have hC : Shape.Concatenates ((wcatPieces m c).map (·.1)) S64x3072 (1 : Fin 2) := concatenates_S64x1024_S64x1024_S64x1024_S64x3072_d1
  refine (concatenate_apply_piece (t := S64x3072) (1 : Fin 2) (wcatPieces m c) hC (ix2 k q') 0 (by show 0 < 3; omega) S64x1024 _ rfl rfl 0 rfl
    (ix2 k q) (fun b hb => ?_) ?_).trans (transpose_ix2_apply _ _ k q)
  · match b with
    | ⟨0, _⟩ => rfl
    | ⟨1, _⟩ => exact absurd rfl hb
  · show 0 + q.val = q'.val; omega
theorem wcat_r (c : Dev nD) (k : Fin 64) (q : Fin 1024) (q' : Fin 3072) (hq : q'.val = 1024 + q.val) : (V m c main_v28 : S64x3072.Idx → EReal) (ix2 k q')
    = T[arg[c, main_arg8], S1024x64] (ix2 q k) := by
  rw [← v28_eq]
  have hC : Shape.Concatenates ((wcatPieces m c).map (·.1)) S64x3072 (1 : Fin 2) := concatenates_S64x1024_S64x1024_S64x1024_S64x3072_d1
  refine (concatenate_apply_piece (t := S64x3072) (1 : Fin 2) (wcatPieces m c) hC (ix2 k q') 1 (by show 1 < 3; omega) S64x1024 _ rfl rfl 1024 rfl
    (ix2 k q) (fun b hb => ?_) ?_).trans (transpose_ix2_apply _ _ k q)
  · match b with
    | ⟨0, _⟩ => rfl
    | ⟨1, _⟩ => exact absurd rfl hb
  · show 1024 + q.val = q'.val; omega
theorem wcat_h (c : Dev nD) (k : Fin 64) (q : Fin 1024) (q' : Fin 3072) (hq : q'.val = 2048 + q.val) : (V m c main_v28 : S64x3072.Idx → EReal) (ix2 k q')
    = T[arg[c, main_arg12], S1024x64] (ix2 q k) := by
  rw [← v28_eq]
  have hC : Shape.Concatenates ((wcatPieces m c).map (·.1)) S64x3072 (1 : Fin 2) := concatenates_S64x1024_S64x1024_S64x1024_S64x3072_d1
  refine (concatenate_apply_piece (t := S64x3072) (1 : Fin 2) (wcatPieces m c) hC (ix2 k q') 2 (by show 2 < 3; omega) S64x1024 _ rfl rfl 2048 rfl
    (ix2 k q) (fun b hb => ?_) ?_).trans (transpose_ix2_apply _ _ k q)
  · match b with
    | ⟨0, _⟩ => rfl
    | ⟨1, _⟩ => exact absurd rfl hb
  · show 2048 + q.val = q'.val; omega

/-! ## The squared first input column is the reference's stage -/

set_option maxHeartbeats 4000000 in
/-- The squared first input column is computed by the same operations as the reference's. -/
theorem v22_eq (c : Dev nD) : Cert.ReferenceIdeal.Read.val_main_v87 (F := Ideal) A[c, main_arg0, S8192x64, .f32] = V m c main_v22 := by
  symm; host_read; rfl

end Cert.KernelIdeal.HostVal

end
-- ==== Proof.KerBlocks.lean ====
/-
  How the blocks of the one gridded call sit in their arrays.

  The call runs over sixteen grid points `t`.  Four of its windows are tiled by rows: the block of the input rows,
  of the state rows, of the variance column and of the output rows at point `t` is rows `512 * t` to
  `512 * t + 511` of its array, all columns; so entry `(p, k)` of the block is entry `(512 * t + p, k)` of the
  array.  The other eight windows have block index `(0, 0)` and a block as large as the array: the block is the
  array, entry by entry.  A block's coordinate on an axis is always the block index times the block's size there plus
  the coordinate inside the block; the block indices are decided over the sixteen points.  Last, every entry of the
  output array lies in the block of some point (row `r` in that of point `r / 512`), and every point writes its
  block back.
-/
import proofs.«158569_j83605833383957_2_alg».proof.Proof.KIFrame
import Idealize.ShloMosaic.Lib.Pipeline.Value
import Idealize.ShloMosaic.Lib.ValueIdx

noncomputable section

namespace Cert.KernelIdeal.Blocks

open Cert.KernelIdeal Cert.KernelIdeal.Gen Cert.KernelIdeal.Hand Idealize.ShloMosaic Idealize.ShloMosaic.TcCoe Idealize.SL.Sem
  Idealize.ShloMosaic.ValueIdx

variable (m : (ℓ : Loc nD τ sig) → Buf (Elt Ideal) ℓ)

/-! ## The block indices -/

/-- The block indices over the grid: the four row-tiled windows are at block `(t, 0)`, the eight whole-array
    windows at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem idx_w0 (t : Fin cfg0.N) : (win0_0.index t (0 : Fin 2) = t.val ∧ win0_0.index t (1 : Fin 2) = 0) := (idx_facts t).1
theorem idx_w1 (t : Fin cfg0.N) : (win0_1.index t (0 : Fin 2) = t.val ∧ win0_1.index t (1 : Fin 2) = 0) := (idx_facts t).2.1
theorem idx_w2 (t : Fin cfg0.N) : (win0_2.index t (0 : Fin 2) = t.val ∧ win0_2.index t (1 : Fin 2) = 0) := (idx_facts t).2.2.1
theorem idx_w11 (t : Fin cfg0.N) : (win0_11.index t (0 : Fin 2) = t.val ∧ win0_11.index t (1 : Fin 2) = 0) := (idx_facts t).2.2.2.1
theorem idx_w3 (t : Fin cfg0.N) : (win0_3.index t (0 : Fin 2) = 0 ∧ win0_3.index t (1 : Fin 2) = 0) := (idx_facts t).2.2.2.2.1
theorem idx_w4 (t : Fin cfg0.N) : (win0_4.index t (0 : Fin 2) = 0 ∧ win0_4.index t (1 : Fin 2) = 0) := (idx_facts t).2.2.2.2.2.1
theorem idx_w5 (t : Fin cfg0.N) : (win0_5.index t (0 : Fin 2) = 0 ∧ win0_5.index t (1 : Fin 2) = 0) := (idx_facts t).2.2.2.2.2.2.1
theorem idx_w6 (t : Fin cfg0.N) : (win0_6.index t (0 : Fin 2) = 0 ∧ win0_6.index t (1 : Fin 2) = 0) := (idx_facts t).2.2.2.2.2.2.2.1
theorem idx_w7 (t : Fin cfg0.N) : (win0_7.index t (0 : Fin 2) = 0 ∧ win0_7.index t (1 : Fin 2) = 0) := (idx_facts t).2.2.2.2.2.2.2.2.1
theorem idx_w8 (t : Fin cfg0.N) : (win0_8.index t (0 : Fin 2) = 0 ∧ win0_8.index t (1 : Fin 2) = 0) := (idx_facts t).2.2.2.2.2.2.2.2.2.1
theorem idx_w9 (t : Fin cfg0.N) : (win0_9.index t (0 : Fin 2) = 0 ∧ win0_9.index t (1 : Fin 2) = 0) := (idx_facts t).2.2.2.2.2.2.2.2.2.2.1
theorem idx_w10 (t : Fin cfg0.N) : (win0_10.index t (0 : Fin 2) = 0 ∧ win0_10.index t (1 : Fin 2) = 0) := (idx_facts t).2.2.2.2.2.2.2.2.2.2.2

/-! ## The row-tiled input windows -/

/-- Entry `(p, k)` of window 0's block at point `t` is entry `(512 * t + p, k)` of its array. -/
theorem rows0 (c : Dev nD) (t : Fin cfg0.N) (p : Fin 512) (k : Fin 64) (i : Fin 8192) (hi : i.val = 512 * t.val + p.val) :
    iblk m c 0 t (ix2 p k) = (V m c main_arg0 : S8192x64.Idx → EReal) (ix2 i k) := by
  obtain ⟨e0, e1⟩ := idx_w0 t
  have h : ((cfg0.win 0).blk t).view.emb (ix2 p k) = (ix2 i k : S8192x64.Idx) := by
    funext a; apply Fin.ext
    match a with
    | ⟨0, _⟩ => show win0_0.index t (0 : Fin 2) * 512 + 1 * p.val = i.val; omega
    | ⟨1, _⟩ => show win0_0.index t (1 : Fin 2) * 64 + 1 * k.val = k.val; omega
  show V m c main_arg0 (((cfg0.win 0).blk t).view.emb (ix2 p k)) = V m c main_arg0 (ix2 i k)
  rw [h]

/-- Entry `(p, k)` of window 1's block at point `t` is entry `(512 * t + p, k)` of its array. -/
theorem rows1 (c : Dev nD) (t : Fin cfg0.N) (p : Fin 512) (k : Fin 1024) (i : Fin 8192) (hi : i.val = 512 * t.val + p.val) :
    iblk m c 1 t (ix2 p k) = (V m c main_arg1 : S8192x1024.Idx → EReal) (ix2 i k) := by
  obtain ⟨e0, e1⟩ := idx_w1 t
  have h : ((cfg0.win 1).blk t).view.emb (ix2 p k) = (ix2 i k : S8192x1024.Idx) := by
    funext a; apply Fin.ext
    match a with
    | ⟨0, _⟩ => show win0_1.index t (0 : Fin 2) * 512 + 1 * p.val = i.val; omega
    | ⟨1, _⟩ => show win0_1.index t (1 : Fin 2) * 1024 + 1 * k.val = k.val; omega
  show V m c main_arg1 (((cfg0.win 1).blk t).view.emb (ix2 p k)) = V m c main_arg1 (ix2 i k)
  rw [h]

/-- Entry `(p, 0)` of window 2's block at point `t` is entry `(512 * t + p, 0)` of its array. -/
theorem rows2 (c : Dev nD) (t : Fin cfg0.N) (p : Fin 512) (i : Fin 8192) (hi : i.val = 512 * t.val + p.val) :
    iblk m c 2 t (ix2 p (0 : Fin 1)) = (V m c main_v23 : S8192x1.Idx → EReal) (ix2 i (0 : Fin 1)) := by
  obtain ⟨e0, e1⟩ := idx_w2 t
  have h : ((cfg0.win 2).blk t).view.emb (ix2 p (0 : Fin 1)) = (ix2 i (0 : Fin 1) : S8192x1.Idx) := by
    funext a; apply Fin.ext
    match a with
    | ⟨0, _⟩ => show win0_2.index t (0 : Fin 2) * 512 + 1 * p.val = i.val; omega
    | ⟨1, _⟩ => show win0_2.index t (1 : Fin 2) * 1 + 1 * 0 = 0; omega
  show V m c main_v23 (((cfg0.win 2).blk t).view.emb (ix2 p (0 : Fin 1))) = V m c main_v23 (ix2 i (0 : Fin 1))
  rw [h]

/-! ## The whole-array windows -/

/-- Window 3's block is its array. -/
theorem whole3 (c : Dev nD) (t : Fin cfg0.N) (k : Fin 64) (q : Fin 3072) :
    iblk m c 3 t (ix2 k q) = (V m c main_v28 : S64x3072.Idx → EReal) (ix2 k q) := by
  obtain ⟨e0, e1⟩ := idx_w3 t
  have h : ((cfg0.win 3).blk t).view.emb (ix2 k q) = (ix2 k q : S64x3072.Idx) := by
    funext a; apply Fin.ext
    match a with
    | ⟨0, _⟩ => show win0_3.index t (0 : Fin 2) * 64 + 1 * k.val = k.val; omega
    | ⟨1, _⟩ => show win0_3.index t (1 : Fin 2) * 3072 + 1 * q.val = q.val; omega
  show V m c main_v28 (((cfg0.win 3).blk t).view.emb (ix2 k q)) = V m c main_v28 (ix2 k q)
  rw [h]

/-- Window 4's block is its array. -/
theorem whole4 (c : Dev nD) (t : Fin cfg0.N) (k : Fin 1024) (q : Fin 2048) :
    iblk m c 4 t (ix2 k q) = (V m c main_v32 : S1024x2048.Idx → EReal) (ix2 k q) := by
  obtain ⟨e0, e1⟩ := idx_w4 t
  have h : ((cfg0.win 4).blk t).view.emb (ix2 k q) = (ix2 k q : S1024x2048.Idx) := by
    funext a; apply Fin.ext
    match a with
    | ⟨0, _⟩ => show win0_4.index t (0 : Fin 2) * 1024 + 1 * k.val = k.val; omega
    | ⟨1, _⟩ => show win0_4.index t (1 : Fin 2) * 2048 + 1 * q.val = q.val; omega
  show V m c main_v32 (((cfg0.win 4).blk t).view.emb (ix2 k q)) = V m c main_v32 (ix2 k q)
  rw [h]

/-- Window 5's block is its array. -/
theorem whole5 (c : Dev nD) (t : Fin cfg0.N) (k : Fin 1024) (q : Fin 1024) :
    iblk m c 5 t (ix2 k q) = (V m c main_v34 : S1024x1024.Idx → EReal) (ix2 k q) := by
  obtain ⟨e0, e1⟩ := idx_w5 t
  have h : ((cfg0.win 5).blk t).view.emb (ix2 k q) = (ix2 k q : S1024x1024.Idx) := by
    funext a; apply Fin.ext
    match a with
    | ⟨0, _⟩ => show win0_5.index t (0 : Fin 2) * 1024 + 1 * k.val = k.val; omega
    | ⟨1, _⟩ => show win0_5.index t (1 : Fin 2) * 1024 + 1 * q.val = q.val; omega
  show V m c main_v34 (((cfg0.win 5).blk t).view.emb (ix2 k q)) = V m c main_v34 (ix2 k q)
  rw [h]

/-- Window 6's block is its one-row array. -/
theorem whole6 (c : Dev nD) (t : Fin cfg0.N) (q : Fin 1024) :
    iblk m c 6 t (ix2 (0 : Fin 1) q) = (V m c main_v36 : S1x1024.Idx → EReal) (ix2 (0 : Fin 1) q) := by
  obtain ⟨e0, e1⟩ := idx_w6 t
  have h : ((cfg0.win 6).blk t).view.emb (ix2 (0 : Fin 1) q) = (ix2 (0 : Fin 1) q : S1x1024.Idx) := by
    funext a; apply Fin.ext
    match a with
    | ⟨0, _⟩ => show win0_6.index t (0 : Fin 2) * 1 + 1 * 0 = 0; omega
    | ⟨1, _⟩ => show win0_6.index t (1 : Fin 2) * 1024 + 1 * q.val = q.val; omega
  show V m c main_v36 (((cfg0.win 6).blk t).view.emb (ix2 (0 : Fin 1) q)) = V m c main_v36 (ix2 (0 : Fin 1) q)
  rw [h]

/-- Window 7's block is its one-row array. -/
theorem whole7 (c : Dev nD) (t : Fin cfg0.N) (q : Fin 1024) :
    iblk m c 7 t (ix2 (0 : Fin 1) q) = (V m c main_v38 : S1x1024.Idx → EReal) (ix2 (0 : Fin 1) q) := by
  obtain ⟨e0, e1⟩ := idx_w7 t
  have h : ((cfg0.win 7).blk t).view.emb (ix2 (0 : Fin 1) q) = (ix2 (0 : Fin 1) q : S1x1024.Idx) := by
    funext a; apply Fin.ext
    match a with
    | ⟨0, _⟩ => show win0_7.index t (0 : Fin 2) * 1 + 1 * 0 = 0; omega
    | ⟨1, _⟩ => show win0_7.index t (1 : Fin 2) * 1024 + 1 * q.val = q.val; omega
  show V m c main_v38 (((cfg0.win 7).blk t).view.emb (ix2 (0 : Fin 1) q)) = V m c main_v38 (ix2 (0 : Fin 1) q)
  rw [h]

/-- Window 8's block is its one-row array. -/
theorem whole8 (c : Dev nD) (t : Fin cfg0.N) (q : Fin 1024) :
    iblk m c 8 t (ix2 (0 : Fin 1) q) = (V m c main_v40 : S1x1024.Idx → EReal) (ix2 (0 : Fin 1) q) := by
  obtain ⟨e0, e1⟩ := idx_w8 t
  have h : ((cfg0.win 8).blk t).view.emb (ix2 (0 : Fin 1) q) = (ix2 (0 : Fin 1) q : S1x1024.Idx) := by
    funext a; apply Fin.ext
    match a with
    | ⟨0, _⟩ => show win0_8.index t (0 : Fin 2) * 1 + 1 * 0 = 0; omega
    | ⟨1, _⟩ => show win0_8.index t (1 : Fin 2) * 1024 + 1 * q.val = q.val; omega
  show V m c main_v40 (((cfg0.win 8).blk t).view.emb (ix2 (0 : Fin 1) q)) = V m c main_v40 (ix2 (0 : Fin 1) q)
  rw [h]

/-- Window 9's block is its one-row array. -/
theorem whole9 (c : Dev nD) (t : Fin cfg0.N) (q : Fin 1024) :
    iblk m c 9 t (ix2 (0 : Fin 1) q) = (V m c main_v44 : S1x1024.Idx → EReal) (ix2 (0 : Fin 1) q) := by
  obtain ⟨e0, e1⟩ := idx_w9 t
  have h : ((cfg0.win 9).blk t).view.emb (ix2 (0 : Fin 1) q) = (ix2 (0 : Fin 1) q : S1x1024.Idx) := by
    funext a; apply Fin.ext
    match a with
    | ⟨0, _⟩ => show win0_9.index t (0 : Fin 2) * 1 + 1 * 0 = 0; omega
    | ⟨1, _⟩ => show win0_9.index t (1 : Fin 2) * 1024 + 1 * q.val = q.val; omega
  show V m c main_v44 (((cfg0.win 9).blk t).view.emb (ix2 (0 : Fin 1) q)) = V m c main_v44 (ix2 (0 : Fin 1) q)
  rw [h]

/-- Window 10's block is its one-row array. -/
theorem whole10 (c : Dev nD) (t : Fin cfg0.N) (q : Fin 1024) :
    iblk m c 10 t (ix2 (0 : Fin 1) q) = (V m c main_v47 : S1x1024.Idx → EReal) (ix2 (0 : Fin 1) q) := by
  obtain ⟨e0, e1⟩ := idx_w10 t
  have h : ((cfg0.win 10).blk t).view.emb (ix2 (0 : Fin 1) q) = (ix2 (0 : Fin 1) q : S1x1024.Idx) := by
    funext a; apply Fin.ext
    match a with
    | ⟨0, _⟩ => show win0_10.index t (0 : Fin 2) * 1 + 1 * 0 = 0; omega
    | ⟨1, _⟩ => show win0_10.index t (1 : Fin 2) * 1024 + 1 * q.val = q.val; omega
  show V m c main_v47 (((cfg0.win 10).blk t).view.emb (ix2 (0 : Fin 1) q)) = V m c main_v47 (ix2 (0 : Fin 1) q)
  rw [h]

/-! ## The output window -/

/-- Entry `(p, q)` of the output block at point `t` sits at entry `(512 * t + p, q)` of the output array. -/
theorem out_emb (t : Fin cfg0.N) (p : Fin 512) (q : Fin 1024) (i : Fin 8192) (hi : i.val = 512 * t.val + p.val) :
    ((cfg0.win 11).blk t).view.emb (ix2 p q) = (ix2 i q : S8192x1024.Idx) := by
  obtain ⟨e0, e1⟩ := idx_w11 t
  funext a; apply Fin.ext
  match a with
  | ⟨0, _⟩ => show win0_11.index t (0 : Fin 2) * 512 + 1 * p.val = i.val; omega
  | ⟨1, _⟩ => show win0_11.index t (1 : Fin 2) * 1024 + 1 * q.val = q.val; omega

/-- An entry of the output array is in point `t`'s block iff each coordinate is in the block's range on its axis. -/
theorem mem_blk11 (t : Fin cfg0.N) (i : S8192x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v48).slice (win0_11.rect t)).set ↔ _
  rw [View.set_slice_whole, Rect.mem_set_unit]
  exact Iff.rfl

/-- Every entry of the output array is in the block of some point, and that point writes its block back: row
    `r` is in the block of point `r / 512`. -/
theorem cover11 (i : S8192x1024.Idx) :
    ∃ t : Fin cfg0.N, (cfg0.win 11).flush t = true ∧ i ∈ ((cfg0.win 11).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e0, e1⟩ := idx_w11 t
  refine ⟨t, flush0_11 t, ?_⟩
  rw [mem_blk11]
  intro a
  match a with
  | ⟨0, _⟩ =>
    show win0_11.index t (0 : Fin 2) * 512 ≤ (i 0).val ∧ (i 0).val < win0_11.index t (0 : Fin 2) * 512 + 512
    omega
  | ⟨1, _⟩ =>
    show win0_11.index t (1 : Fin 2) * 1024 ≤ (i 1).val ∧ (i 1).val < win0_11.index t (1 : Fin 2) * 1024 + 1024
    omega

end Cert.KernelIdeal.Blocks

end
-- ==== Proof.GruSpec.lean ====
/-
  One step of a gated recurrent cell driven by a variance term, entry by entry on the extended reals.

  For a batch row `i` and a hidden column `j`:
    z = σ(x·Wz + h·Uz + bz + bz'),   r = σ(x·Wr + h·Ur + br + br'),
    c = tanh(x·Wh + (r ∘ h)·Uh + bh + bh'),
    out = tanh((1 - z)·c + z·h + γ·(g_i·Wg_j + Wgb_j)),
  with σ the logistic function, all products of a row with a weight matrix taken against the matrix's rows
  (`x·W` at `(i, j)` is `∑ k, x i k * W j k`).

  Two arrangements of these sums are written out. The first (`…K`) adds the two matrix products first and the two
  biases to each other, uses the logistic function as one operation, and distributes γ over the variance term
  (`g_i·(γ·Wg_j) + γ·Wgb_j`). The second (`…R`) adds products and biases from left to right, spells the logistic
  function `1 / (1 + exp(-v))`, and multiplies the variance term by γ last.  They agree: sums of extended reals
  commute and associate, and γ distributes when γ, g_i, Wg_j and Wgb_j are real.
-/
import Idealize.ShloMosaic.PureOps.Ideal
import Idealize.ShloMosaic.Lib.ValueIdx

noncomputable section

open scoped BigOperators

namespace Cert.GruSpec

open Idealize.ShloMosaic Idealize.ShloMosaic.ValueIdx

/-- A matrix of extended reals, as a function of its rank-2 index. -/
abbrev Mat (a b : Nat) : Type := (⟨2, ![a, b]⟩ : Shape).Idx → EReal
/-- A vector of extended reals, as a function of its rank-1 index. -/
abbrev Vc (a : Nat) : Type := (⟨1, ![a]⟩ : Shape).Idx → EReal

/-- The value of the single-precision word of `1.0`. -/
abbrev one32 : EReal := Ideal.ofBits .f32 0x3F800000#32

/-- Entry `(i, j)` of `x·Wᵀ` for a `[8192, 64]` input and a `[1024, 64]` weight. -/
def xw (x : Mat 8192 64) (W : Mat 1024 64) (i : Fin 8192) (j : Fin 1024) : EReal :=
  ∑ k : Fin 64, x (ix2 i k) * W (ix2 j k)

/-- Entry `(i, j)` of `h·Uᵀ` for a `[8192, 1024]` state and a `[1024, 1024]` weight. -/
def hu (h : Mat 8192 1024) (U : Mat 1024 1024) (i : Fin 8192) (j : Fin 1024) : EReal :=
  ∑ k : Fin 1024, h (ix2 i k) * U (ix2 j k)

/-! ## First arrangement -/

/-- A gate: the logistic function of `(x·W + h·U) + (b + b')`. -/
def gateK (x : Mat 8192 64) (h : Mat 8192 1024) (W : Mat 1024 64) (U : Mat 1024 1024) (b b' : Vc 1024)
    (i : Fin 8192) (j : Fin 1024) : EReal :=
  Ideal.logistic ((xw x W i j + hu h U i j) + (b (ix1 j) + b' (ix1 j)))

/-- The candidate state: `tanh((x·Wh + (r ∘ h)·Uh) + (bh + bh'))`. -/
def candK (x : Mat 8192 64) (h : Mat 8192 1024) (Wr : Mat 1024 64) (Ur : Mat 1024 1024) (br br' : Vc 1024)
    (Wh : Mat 1024 64) (Uh : Mat 1024 1024) (bh bh' : Vc 1024) (i : Fin 8192) (j : Fin 1024) : EReal :=
  Ideal.tanh ((xw x Wh i j + ∑ k : Fin 1024, (gateK x h Wr Ur br br' i k * h (ix2 i k)) * Uh (ix2 j k))
    + (bh (ix1 j) + bh' (ix1 j)))

/-- The new state, γ distributed over the variance term. -/
def outK (x : Mat 8192 64) (h : Mat 8192 1024) (Wz : Mat 1024 64) (Uz : Mat 1024 1024) (bz bz' : Vc 1024)
    (Wr : Mat 1024 64) (Ur : Mat 1024 1024) (br br' : Vc 1024)
    (Wh : Mat 1024 64) (Uh : Mat 1024 1024) (bh bh' : Vc 1024)
    (g : Vc 8192) (γ : EReal) (Wg : Mat 1024 1) (Wgb : Vc 1024) (i : Fin 8192) (j : Fin 1024) : EReal :=
  Ideal.tanh (((one32 - gateK x h Wz Uz bz bz' i j) * candK x h Wr Ur br br' Wh Uh bh bh' i j
      + gateK x h Wz Uz bz bz' i j * h (ix2 i j))
    + (g (ix1 i) * (γ * Wg (ix2 j 0)) + γ * Wgb (ix1 j)))

/-! ## Second arrangement -/

/-- A gate: `1 / (1 + exp(-(((x·W + b) + h·U) + b')))`. -/
def gateR (x : Mat 8192 64) (h : Mat 8192 1024) (W : Mat 1024 64) (U : Mat 1024 1024) (b b' : Vc 1024)
    (i : Fin 8192) (j : Fin 1024) : EReal :=
  Ideal.div one32 (one32 + Ideal.exp (-(((xw x W i j + b (ix1 j)) + hu h U i j) + b' (ix1 j))))

/-- The candidate state: `tanh(((x·Wh + bh) + (r ∘ h)·Uh) + bh')`. -/
def candR (x : Mat 8192 64) (h : Mat 8192 1024) (Wr : Mat 1024 64) (Ur : Mat 1024 1024) (br br' : Vc 1024)
    (Wh : Mat 1024 64) (Uh : Mat 1024 1024) (bh bh' : Vc 1024) (i : Fin 8192) (j : Fin 1024) : EReal :=
  Ideal.tanh (((xw x Wh i j + bh (ix1 j)) + ∑ k : Fin 1024, (gateR x h Wr Ur br br' i k * h (ix2 i k)) * Uh (ix2 j k))
    + bh' (ix1 j))

/-- The new state, the variance term multiplied by γ last. -/
def outR (x : Mat 8192 64) (h : Mat 8192 1024) (Wz : Mat 1024 64) (Uz : Mat 1024 1024) (bz bz' : Vc 1024)
    (Wr : Mat 1024 64) (Ur : Mat 1024 1024) (br br' : Vc 1024)
    (Wh : Mat 1024 64) (Uh : Mat 1024 1024) (bh bh' : Vc 1024)
    (g : Vc 8192) (γ : EReal) (Wg : Mat 1024 1) (Wgb : Vc 1024) (i : Fin 8192) (j : Fin 1024) : EReal :=
  Ideal.tanh (((one32 - gateR x h Wz Uz bz bz' i j) * candR x h Wr Ur br br' Wh Uh bh bh' i j
      + gateR x h Wz Uz bz bz' i j * h (ix2 i j))
    + γ * (g (ix1 i) * Wg (ix2 j 0) + Wgb (ix1 j)))

end Cert.GruSpec

end
-- ==== Proof.KerEntry.lean ====
/-
  The value the body stores at one entry of its output block, written out: it is the first arrangement of the gated
  recurrent step's sums (two joined matrix products added first, summed biases, the logistic function as one operation,
  the variance scale distributed).

  The road: each matrix product of two blocks, read at an entry, is a sum over the contracted coordinate; a column cut of
  a joined product reads the product at the shifted column; a row (a column) laid over the block reads the row (the
  column) entry; the pointwise operations read through.  The blocks' entries are then replaced by the arrays' entries
  they hold.
-/
import proofs.«158569_j83605833383957_2_alg».proof.Proof.Gen.KernelIdeal.Skeleton
import proofs.«158569_j83605833383957_2_alg».proof.Proof.GruSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerEntry

open Cert.KernelIdeal Cert.KernelIdeal.Gen Cert.GruSpec Idealize.ShloMosaic Idealize.ShloMosaic.ValueIdx

/-! ## The three matrix products at an entry

Each contracts the first operand's columns with the second operand's rows into a zero block, so its entry `(p, c)` is the
sum over the contracted coordinate `k` of `x (p, k) * w (k, c)`. -/

/-- The first operand's index of the `[512,64] × [64,3072]` product keeps the output row. -/
theorem lhsA_0 (j : S512x3072.Idx) (c : dot_S512x64_S64x3072_S512x3072_1_0_0_1_n_n.contr.Idx) :
    (dot_S512x64_S64x3072_S512x3072_1_0_0_1_n_n.lhsIdx j c 0).val = (j 0).val := by
  unfold DotDims.lhsIdx
  rw [dif_neg (show ¬(0 : Fin S512x64.rank) ∈ dot_S512x64_S64x3072_S512x3072_1_0_0_1_n_n.lhsBatch by decide),
    dif_pos (show (0 : Fin S512x64.rank) ∈ dot_S512x64_S64x3072_S512x3072_1_0_0_1_n_n.lhsNonContracting by decide)]
  rfl
/-- The second operand's index of that product keeps the output column. -/
theorem rhsA_1 (j : S512x3072.Idx) (c : dot_S512x64_S64x3072_S512x3072_1_0_0_1_n_n.contr.Idx) :
    (dot_S512x64_S64x3072_S512x3072_1_0_0_1_n_n.rhsIdx j c 1).val = (j 1).val := by
  unfold DotDims.rhsIdx
  rw [dif_neg (show ¬(1 : Fin S64x3072.rank) ∈ dot_S512x64_S64x3072_S512x3072_1_0_0_1_n_n.rhsBatch by decide),
    dif_pos (show (1 : Fin S64x3072.rank) ∈ dot_S512x64_S64x3072_S512x3072_1_0_0_1_n_n.rhsNonContracting by decide)]
  rfl
/-- Entry `(p, c)` of a `[512,64]` block times a `[64,3072]` block: the sum over the 64 shared coordinates. -/
theorem matA_entry (x : FVec Ideal S512x64 .bf16) (w : FVec Ideal S64x3072 .bf16) (p : Fin 512) (c : Fin 3072) :
    FloatOps.matmul dot_S512x64_S64x3072_S512x3072_1_0_0_1_n_n none x w (constant S512x3072 .f32 0x00000000#32) (ix2 p c)
      = ∑ k : Fin 64, x (ix2 p k) * w (ix2 k c) := by
  refine (Ideal.matmul_constant_zero_apply _ none _ _ _).trans ?_
  rw [← Equiv.sum_comp (contrEquiv1 dot_S512x64_S64x3072_S512x3072_1_0_0_1_n_n 64 rfl rfl).symm]
  refine Finset.sum_congr rfl fun k _ => ?_
  have hk := contrEquiv1_symm_val dot_S512x64_S64x3072_S512x3072_1_0_0_1_n_n 64 rfl rfl k
  have el : dot_S512x64_S64x3072_S512x3072_1_0_0_1_n_n.lhsIdx (ix2 p c)
      ((contrEquiv1 dot_S512x64_S64x3072_S512x3072_1_0_0_1_n_n 64 rfl rfl).symm k) = ix2 p k :=
    funext fun a => Fin.ext (by
      match a with
      | ⟨0, _⟩ => exact lhsA_0 _ _
      | ⟨1, _⟩ => exact (dot_S512x64_S64x3072_S512x3072_1_0_0_1_n_n.lhsIdx_val_of_single rfl _ _).trans hk)
  have er : dot_S512x64_S64x3072_S512x3072_1_0_0_1_n_n.rhsIdx (ix2 p c)
      ((contrEquiv1 dot_S512x64_S64x3072_S512x3072_1_0_0_1_n_n 64 rfl rfl).symm k) = ix2 k c :=
    funext fun a => Fin.ext (by
      match a with
      | ⟨0, _⟩ => exact (dot_S512x64_S64x3072_S512x3072_1_0_0_1_n_n.rhsIdx_val_of_single rfl _ _).trans hk
      | ⟨1, _⟩ => exact rhsA_1 _ _)
  rw [el, er]

/-- The first operand's index of the `[512,1024] × [1024,2048]` product keeps the output row. -/
theorem lhsB_0 (j : S512x2048.Idx) (c : dot_S512x1024_S1024x2048_S512x2048_1_0_0_1_n_n.contr.Idx) :
    (dot_S512x1024_S1024x2048_S512x2048_1_0_0_1_n_n.lhsIdx j c 0).val = (j 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
/-- The second operand's index of that product keeps the output column. -/
theorem rhsB_1 (j : S512x2048.Idx) (c : dot_S512x1024_S1024x2048_S512x2048_1_0_0_1_n_n.contr.Idx) :
    (dot_S512x1024_S1024x2048_S512x2048_1_0_0_1_n_n.rhsIdx j c 1).val = (j 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl
/-- Entry `(p, c)` of a `[512,1024]` block times a `[1024,2048]` block: the sum over the 1024 shared coordinates. -/
theorem matB_entry (x : FVec Ideal S512x1024 .bf16) (w : FVec Ideal S1024x2048 .bf16) (p : Fin 512) (c : Fin 2048) :
    FloatOps.matmul dot_S512x1024_S1024x2048_S512x2048_1_0_0_1_n_n none x w (constant S512x2048 .f32 0x00000000#32) (ix2 p c)
      = ∑ k : Fin 1024, x (ix2 p k) * w (ix2 k c) := by
  refine (Ideal.matmul_constant_zero_apply _ none _ _ _).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p c)
      ((contrEquiv1 dot_S512x1024_S1024x2048_S512x2048_1_0_0_1_n_n 1024 rfl rfl).symm k) = ix2 p k :=
    funext fun a => Fin.ext (by
      match a with
      | ⟨0, _⟩ => exact lhsB_0 _ _
      | ⟨1, _⟩ => exact (dot_S512x1024_S1024x2048_S512x2048_1_0_0_1_n_n.lhsIdx_val_of_single rfl _ _).trans hk)
  have er : dot_S512x1024_S1024x2048_S512x2048_1_0_0_1_n_n.rhsIdx (ix2 p c)
      ((contrEquiv1 dot_S512x1024_S1024x2048_S512x2048_1_0_0_1_n_n 1024 rfl rfl).symm k) = ix2 k c :=
    funext fun a => Fin.ext (by
      match a with
      | ⟨0, _⟩ => exact (dot_S512x1024_S1024x2048_S512x2048_1_0_0_1_n_n.rhsIdx_val_of_single rfl _ _).trans hk
      | ⟨1, _⟩ => exact rhsB_1 _ _)
  rw [el, er]

/-- The first operand's index of the `[512,1024] × [1024,1024]` product keeps the output row. -/
theorem lhsC_0 (j : S512x1024.Idx) (c : dot_S512x1024_S1024x1024_S512x1024_1_0_0_1_n_n.contr.Idx) :
    (dot_S512x1024_S1024x1024_S512x1024_1_0_0_1_n_n.lhsIdx j c 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- The second operand's index of that product keeps the output column. -/
theorem rhsC_1 (j : S512x1024.Idx) (c : dot_S512x1024_S1024x1024_S512x1024_1_0_0_1_n_n.contr.Idx) :
    (dot_S512x1024_S1024x1024_S512x1024_1_0_0_1_n_n.rhsIdx j c 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl
/-- Entry `(p, c)` of a `[512,1024]` block times a `[1024,1024]` block: the sum over the 1024 shared coordinates. -/
theorem matC_entry (x : FVec Ideal S512x1024 .bf16) (w : FVec Ideal S1024x1024 .bf16) (p : Fin 512) (c : Fin 1024) :
    FloatOps.matmul dot_S512x1024_S1024x1024_S512x1024_1_0_0_1_n_n none x w (constant S512x1024 .f32 0x00000000#32) (ix2 p c)
      = ∑ k : Fin 1024, x (ix2 p k) * w (ix2 k c) := by
  refine (Ideal.matmul_constant_zero_apply _ none _ _ _).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c)
      ((contrEquiv1 dot_S512x1024_S1024x1024_S512x1024_1_0_0_1_n_n 1024 rfl rfl).symm k) = ix2 p k :=
    funext fun a => Fin.ext (by
      match a with
      | ⟨0, _⟩ => exact lhsC_0 _ _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p c)
      ((contrEquiv1 dot_S512x1024_S1024x1024_S512x1024_1_0_0_1_n_n 1024 rfl rfl).symm k) = ix2 k c :=
    funext fun a => Fin.ext (by
      match a with
      | ⟨0, _⟩ => exact (dot_S512x1024_S1024x1024_S512x1024_1_0_0_1_n_n.rhsIdx_val_of_single rfl _ _).trans hk
      | ⟨1, _⟩ => exact rhsC_1 _ _)
  rw [el, er]

/-- Entry `(p, c)` of the input block times the joined input weights: the sum over the 64 input features. (The change of
    format before the product is the identity on extended reals.) -/
theorem pay2_entry (v0 : Vec Ideal S512x64 .f32) (v4 : Vec Ideal S64x3072 .bf16) (p : Fin 512) (c : Fin 3072) :
    k0_pay2 (F := Ideal) v0 v4 (ix2 p c) = ∑ k : Fin 64, (v0 (ix2 p k) : EReal) * (v4 (ix2 k c) : EReal) := by
  unfold k0_pay2
  refine (matA_entry _ _ p c).trans ?_
  rw [shapeCast_self]
  rfl

/-- Entry `(p, c)` of the state block times the joined state weights: the sum over the 1024 state coordinates. -/
theorem pay3_entry (v1 : Vec Ideal S512x1024 .f32) (v7 : Vec Ideal S1024x2048 .bf16) (p : Fin 512) (c : Fin 2048) :
    k0_pay3 (F := Ideal) v1 v7 (ix2 p c) = ∑ k : Fin 1024, (v1 (ix2 p k) : EReal) * (v7 (ix2 k c) : EReal) := by
  unfold k0_pay3
  refine (matB_entry _ _ p c).trans ?_
  rw [shapeCast_self]
  rfl

/-! ## Layout and pointwise operations at an entry -/

/-- A `[512,1]` column laid over `[512,1024]` reads, at `(p, c)`, the column's entry of row `p`. -/
theorem column_entry {α : Type} (v : (⟨2, ![512, 1]⟩ : Shape).Idx → α)
    (h : (⟨2, ![512, 1]⟩ : Shape).Broadcasts ⟨2, ![512, 1024]⟩) (p : Fin 512) (c : Fin 1024) :
    broadcastTo ⟨2, ![512, 1024]⟩ v h (ix2 p c) = v (ix2 p (0 : Fin 1)) := by
  refine broadcastTo_apply v h (ix2 p c) (ix2 p (0 : Fin 1)) fun ax => ?_
  match ax with
  | ⟨0, _⟩ =>
    show p.val = if (512 : Nat) = 1 then 0 else p.val
    rw [if_neg (by decide)]
  | ⟨1, _⟩ =>
    show (0 : Nat) = if (1 : Nat) = 1 then 0 else c.val
    rw [if_pos rfl]

/-- The logistic function of a block reads through at an entry. -/
theorem logistic_entry {s : Shape} {φ : FTy} (x : FVec Ideal s φ) (j : s.Idx) :
    logistic x j = Ideal.logistic (x j) := rfl
/-- The hyperbolic tangent of a block reads through at an entry. -/
theorem tanh_entry {s : Shape} {φ : FTy} (x : FVec Ideal s φ) (j : s.Idx) :
    tanh x j = Ideal.tanh (x j) := rfl

/-! ## The two gates -/

/-- The update gate at `(p, c)`: the logistic function of the first column band of the two joined products, added, plus
    the bias row. -/
theorem zGate_entry (v0 : Vec Ideal S512x64 .f32) (v1 : Vec Ideal S512x1024 .f32) (v4 : Vec Ideal S64x3072 .bf16)
    (v7 : Vec Ideal S1024x2048 .bf16) (v13 : Vec Ideal S1x1024 .f32) (p : Fin 512) (c : Fin 1024) :
    k0_pay4 (F := Ideal) v0 v1 v4 v7 v13 (ix2 p c)
      = Ideal.logistic (((∑ k : Fin 64, (v0 (ix2 p k) : EReal) * (v4 (ix2 k ⟨c.val, by have := c.isLt; omega⟩) : EReal))
          + ∑ k : Fin 1024, (v1 (ix2 p k) : EReal) * (v7 (ix2 k ⟨c.val, by have := c.isLt; omega⟩) : EReal))
        + (v13 (ix2 (0 : Fin 1) c) : EReal)) := by
  unfold k0_pay4
  rw [logistic_entry, addf_apply, addf_apply,
    slice2_axis1_apply 0 (k0_pay2 v0 v4) slices_S512x3072_o0_0_S512x1024 p c ⟨c.val, by have := c.isLt; omega⟩
      (Nat.zero_add _).symm,
    slice2_axis1_apply 0 (k0_pay3 v1 v7) slices_S512x2048_o0_0_S512x1024 p c ⟨c.val, by have := c.isLt; omega⟩
      (Nat.zero_add _).symm,
    broadcastTo_1b_ab_apply, shapeCast_self, pay2_entry, pay3_entry]

/-- The body's reset gate as a block: the logistic function of the second column band of the two joined products, added,
    plus the bias row. -/
def rBlock (v0 : Vec Ideal S512x64 .f32) (v1 : Vec Ideal S512x1024 .f32) (v4 : Vec Ideal S64x3072 .bf16)
    (v7 : Vec Ideal S1024x2048 .bf16) (v20 : Vec Ideal S1x1024 .f32) : FVec Ideal S512x1024 .f32 :=
  logistic (addf (addf
      (extractStridedSlice S512x1024 ![0, 1024] (k0_pay2 v0 v4) slices_S512x3072_o0_1024_S512x1024)
      (extractStridedSlice S512x1024 ![0, 1024] (k0_pay3 v1 v7) slices_S512x2048_o0_1024_S512x1024))
    (broadcastTo S512x1024 (shapeCast S1x1024 v20 shapeCasts_S1x1024_S1x1024) broadcasts_S1x1024_S512x1024))

/-- The reset gate at `(p, c)`. -/
theorem rGate_entry (v0 : Vec Ideal S512x64 .f32) (v1 : Vec Ideal S512x1024 .f32) (v4 : Vec Ideal S64x3072 .bf16)
    (v7 : Vec Ideal S1024x2048 .bf16) (v20 : Vec Ideal S1x1024 .f32) (p : Fin 512) (c : Fin 1024) :
    rBlock v0 v1 v4 v7 v20 (ix2 p c)
      = Ideal.logistic (((∑ k : Fin 64, (v0 (ix2 p k) : EReal) * (v4 (ix2 k ⟨1024 + c.val, by have := c.isLt; omega⟩) : EReal))
          + ∑ k : Fin 1024, (v1 (ix2 p k) : EReal) * (v7 (ix2 k ⟨1024 + c.val, by have := c.isLt; omega⟩) : EReal))
        + (v20 (ix2 (0 : Fin 1) c) : EReal)) := by
  unfold rBlock
  rw [logistic_entry, addf_apply, addf_apply,
    slice2_axis1_apply 1024 (k0_pay2 v0 v4) slices_S512x3072_o0_1024_S512x1024 p c ⟨1024 + c.val, by have := c.isLt; omega⟩ rfl,
    slice2_axis1_apply 1024 (k0_pay3 v1 v7) slices_S512x2048_o0_1024_S512x1024 p c ⟨1024 + c.val, by have := c.isLt; omega⟩ rfl,
    broadcastTo_1b_ab_apply, shapeCast_self, pay2_entry, pay3_entry]

/-! ## The candidate state -/

/-- The candidate at `(p, c)`: the hyperbolic tangent of the third column band of the input product plus the product of
    the gated state with the candidate weights, plus the bias row. -/
theorem cand_entry (v0 : Vec Ideal S512x64 .f32) (v1 : Vec Ideal S512x1024 .f32) (v4 : Vec Ideal S64x3072 .bf16)
    (v7 : Vec Ideal S1024x2048 .bf16) (v20 : Vec Ideal S1x1024 .f32) (v28 : Vec Ideal S1024x1024 .bf16)
    (v33 : Vec Ideal S1x1024 .f32) (p : Fin 512) (c : Fin 1024) :
    k0_pay5 (F := Ideal) v0 v1 v4 v7 v20 v28 v33 (ix2 p c)
      = Ideal.tanh (((∑ k : Fin 64, (v0 (ix2 p k) : EReal) * (v4 (ix2 k ⟨2048 + c.val, by have := c.isLt; omega⟩) : EReal))
          + ∑ k : Fin 1024, (rBlock v0 v1 v4 v7 v20 (ix2 p k) * (v1 (ix2 p k) : EReal)) * (v28 (ix2 k c) : EReal))
        + (v33 (ix2 (0 : Fin 1) c) : EReal)) := by
  unfold k0_pay5
  rw [tanh_entry, addf_apply, addf_apply,
    slice2_axis1_apply 2048 (k0_pay2 v0 v4) slices_S512x3072_o0_2048_S512x1024 p c ⟨2048 + c.val, by have := c.isLt; omega⟩ rfl,
    broadcastTo_1b_ab_apply, shapeCast_self v33, pay2_entry]
  refine congrArg (fun t : EReal => Ideal.tanh (((∑ k : Fin 64, (v0 (ix2 p k) : EReal)
    * (v4 (ix2 k ⟨2048 + c.val, by have := c.isLt; omega⟩) : EReal)) + t) + (v33 (ix2 (0 : Fin 1) c) : EReal))) ?_
  refine (matC_entry _ _ p c).trans ?_
  rw [shapeCast_self v28]
  rfl

/-! ## The stored value -/

/-- The stored block at `(p, c)` over any gate, candidate and unit blocks: the hyperbolic tangent of the blend of the
    candidate and the state plus the variance term. -/
theorem pay1_entry (v1 : Vec Ideal S512x1024 .f32) (v24 v37 v38 : FVec Ideal S512x1024 .f32) (v43 : Vec Ideal S512x1 .f32)
    (v45 v50 : Vec Ideal S1x1024 .f32) (p : Fin 512) (c : Fin 1024) :
    k0_pay1 (F := Ideal) v1 v24 v37 v38 v43 v45 v50 (ix2 p c)
      = Ideal.tanh (((v38 (ix2 p c) - v24 (ix2 p c)) * v37 (ix2 p c) + v24 (ix2 p c) * (v1 (ix2 p c) : EReal))
        + ((v43 (ix2 p (0 : Fin 1)) : EReal) * (v45 (ix2 (0 : Fin 1) c) : EReal) + (v50 (ix2 (0 : Fin 1) c) : EReal))) := by
  unfold k0_pay1
  rw [tanh_entry, addf_apply, addf_apply, addf_apply, mulf_apply, mulf_apply, mulf_apply, subf_apply,
    column_entry, broadcastTo_1b_ab_apply, broadcastTo_1b_ab_apply]
  simp only [shapeCast_self]

/-! ## The entry is the specification's first arrangement

Row `p` of the loaded blocks is row `i` of the arrays; the joined weight blocks hold the transposed weights side by side;
the bias rows hold the summed biases; the variance rows are scaled beforehand. -/

theorem pay_entry
    (v0 : Vec Ideal S512x64 .f32) (v1 : Vec Ideal S512x1024 .f32) (v43 : Vec Ideal S512x1 .f32)
    (v4 : Vec Ideal S64x3072 .bf16) (v7 : Vec Ideal S1024x2048 .bf16) (v28 : Vec Ideal S1024x1024 .bf16)
    (v13 v20 v33 v45 v50 : Vec Ideal S1x1024 .f32)
    (X : Mat 8192 64) (H : Mat 8192 1024) (Wz Wr Wh : Mat 1024 64) (Uz Ur Uh : Mat 1024 1024)
    (bz bz' br br' bh bh' : Vc 1024) (g : Vc 8192) (γ : EReal) (Wg : Mat 1024 1) (Wgb : Vc 1024)
    (i : Fin 8192) (p : Fin 512) (q : Fin 1024)
    (h0 : ∀ k : Fin 64, v0 (ix2 p k) = X (ix2 i k))
    (h1 : ∀ k : Fin 1024, v1 (ix2 p k) = H (ix2 i k))
    (h2 : v43 (ix2 p (0 : Fin 1)) = g (ix1 i))
    (h3z : ∀ (k : Fin 64) (q : Fin 1024) (q' : Fin 3072), q'.val = q.val → v4 (ix2 k q') = Wz (ix2 q k))
    (h3r : ∀ (k : Fin 64) (q : Fin 1024) (q' : Fin 3072), q'.val = 1024 + q.val → v4 (ix2 k q') = Wr (ix2 q k))
    (h3h : ∀ (k : Fin 64) (q : Fin 1024) (q' : Fin 3072), q'.val = 2048 + q.val → v4 (ix2 k q') = Wh (ix2 q k))
    (h4z : ∀ (k q : Fin 1024) (q' : Fin 2048), q'.val = q.val → v7 (ix2 k q') = Uz (ix2 q k))
    (h4r : ∀ (k q : Fin 1024) (q' : Fin 2048), q'.val = 1024 + q.val → v7 (ix2 k q') = Ur (ix2 q k))
    (h5 : ∀ (k q : Fin 1024), v28 (ix2 k q) = Uh (ix2 q k))
    (h6 : ∀ q : Fin 1024, v13 (ix2 (0 : Fin 1) q) = bz (ix1 q) + bz' (ix1 q))
    (h7 : ∀ q : Fin 1024, v20 (ix2 (0 : Fin 1) q) = br (ix1 q) + br' (ix1 q))
    (h8 : ∀ q : Fin 1024, v33 (ix2 (0 : Fin 1) q) = bh (ix1 q) + bh' (ix1 q))
    (h9 : ∀ q : Fin 1024, v45 (ix2 (0 : Fin 1) q) = γ * Wg (ix2 q (0 : Fin 1)))
    (h10 : ∀ q : Fin 1024, v50 (ix2 (0 : Fin 1) q) = γ * Wgb (ix1 q)) :
    k0_pay1 (F := Ideal) v1 (k0_pay4 v0 v1 v4 v7 v13) (k0_pay5 v0 v1 v4 v7 v20 v28 v33) (k0_pay6 (F := Ideal)) v43 v45 v50 (ix2 p q)
      = outK X H Wz Uz bz bz' Wr Ur br br' Wh Uh bh bh' g γ Wg Wgb i q := by
  -- the update gate at any column of row `p`
  have hz : ∀ c : Fin 1024, k0_pay4 (F := Ideal) v0 v1 v4 v7 v13 (ix2 p c) = gateK X H Wz Uz bz bz' i c := fun c => by
    have e1 : (∑ k : Fin 64, (v0 (ix2 p k) : EReal) * (v4 (ix2 k ⟨c.val, by have := c.isLt; omega⟩) : EReal)) = xw X Wz i c :=
      (Finset.sum_congr rfl fun k _ => by rw [h0 k, h3z k c ⟨c.val, by have := c.isLt; omega⟩ rfl] :
        _ = ∑ k : Fin 64, X (ix2 i k) * Wz (ix2 c k))
    have e2 : (∑ k : Fin 1024, (v1 (ix2 p k) : EReal) * (v7 (ix2 k ⟨c.val, by have := c.isLt; omega⟩) : EReal)) = hu H Uz i c :=
      (Finset.sum_congr rfl fun k _ => by rw [h1 k, h4z k c ⟨c.val, by have := c.isLt; omega⟩ rfl] :
        _ = ∑ k : Fin 1024, H (ix2 i k) * Uz (ix2 c k))
    rw [zGate_entry, e1, e2, h6 c]
    rfl
  -- the reset gate at any column of row `p`: it sits under the candidate's sum
  have hr : ∀ c : Fin 1024, rBlock v0 v1 v4 v7 v20 (ix2 p c) = gateK X H Wr Ur br br' i c := fun c => by
    have e1 : (∑ k : Fin 64, (v0 (ix2 p k) : EReal) * (v4 (ix2 k ⟨1024 + c.val, by have := c.isLt; omega⟩) : EReal)) = xw X Wr i c :=
      (Finset.sum_congr rfl fun k _ => by rw [h0 k, h3r k c ⟨1024 + c.val, by have := c.isLt; omega⟩ rfl] :
        _ = ∑ k : Fin 64, X (ix2 i k) * Wr (ix2 c k))
    have e2 : (∑ k : Fin 1024, (v1 (ix2 p k) : EReal) * (v7 (ix2 k ⟨1024 + c.val, by have := c.isLt; omega⟩) : EReal)) = hu H Ur i c :=
      (Finset.sum_congr rfl fun k _ => by rw [h1 k, h4r k c ⟨1024 + c.val, by have := c.isLt; omega⟩ rfl] :
        _ = ∑ k : Fin 1024, H (ix2 i k) * Ur (ix2 c k))
    rw [rGate_entry, e1, e2, h7 c]
    rfl
  -- the candidate at `(p, q)`
  have hc : k0_pay5 (F := Ideal) v0 v1 v4 v7 v20 v28 v33 (ix2 p q) = candK X H Wr Ur br br' Wh Uh bh bh' i q := by
    have e1 : (∑ k : Fin 64, (v0 (ix2 p k) : EReal) * (v4 (ix2 k ⟨2048 + q.val, by have := q.isLt; omega⟩) : EReal)) = xw X Wh i q :=
      (Finset.sum_congr rfl fun k _ => by rw [h0 k, h3h k q ⟨2048 + q.val, by have := q.isLt; omega⟩ rfl] :
        _ = ∑ k : Fin 64, X (ix2 i k) * Wh (ix2 q k))
    have e2 : (∑ k : Fin 1024, (rBlock v0 v1 v4 v7 v20 (ix2 p k) * (v1 (ix2 p k) : EReal)) * (v28 (ix2 k q) : EReal))
        = ∑ k : Fin 1024, (gateK X H Wr Ur br br' i k * H (ix2 i k)) * Uh (ix2 q k) :=
      Finset.sum_congr rfl fun k _ => by rw [hr k, h1 k, h5 k q]
    rw [cand_entry, e1, e2, h8 q]
    rfl
  -- the unit block reads the word of `1.0`
  have h38 : k0_pay6 (F := Ideal) (ix2 p q) = one32 := rfl
  rw [pay1_entry, hz q, hc, h38, h1 q, h2, h9 q, h10 q]
  rfl

end Cert.KerEntry

end
-- ==== Proof.KerValue.lean ====
/-
  The value of the idealized kernel program: after the run the output array holds, at row `i` and column `j`, the
  new state of the gated recurrent cell in its first arrangement (`GruSpec.outK`) of the ARGUMENT arrays, and the two
  other results are the host's variance vector and squared first input column.

  Point `t` of the grid writes back rows `512·t … 512·t + 511` of the output.  The value it stores at `(p, q)` of its
  block is the body's arithmetic of the loaded blocks; row `p` of the row blocks is row `512·t + p` of their arrays,
  the whole-array blocks are the host-computed arrays, which hold the transposed weights, the summed biases and
  the scaled variance rows; so the stored value is the specification's at `(512·t + p, q)`.  The sixteen blocks
  cover the array.
-/
import proofs.«158569_j83605833383957_2_alg».proof.Proof.KIFrame
import proofs.«158569_j83605833383957_2_alg».proof.Proof.KerHost
import proofs.«158569_j83605833383957_2_alg».proof.Proof.KerBlocks
import proofs.«158569_j83605833383957_2_alg».proof.Proof.KerEntry
import proofs.«158569_j83605833383957_2_alg».proof.Proof.GruSpec
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

set_option quotPrecheck false in
local notation "arg[" c ", " b "]" => m ((c : Thread nD τ).loc b)

/-- The variance vector `g`, the host's chain of operations of the five variance arguments. -/
def garch (c : Dev nD) : GruSpec.Vc 8192 :=
  Cert.ReferenceIdeal.Read.val_main_v19 (F := Ideal) arg[c, main_arg2] arg[c, main_arg3] arg[c, main_arg18] arg[c, main_arg19] arg[c, main_arg20]

/-- The output array as one function of the argument arrays. -/
def GK (c : Dev nD) : S8192x1024.Idx → EReal := fun idx =>
  GruSpec.outK arg[c, main_arg0] arg[c, main_arg1] arg[c, main_arg4] arg[c, main_arg6] arg[c, main_arg5] arg[c, main_arg7]
    arg[c, main_arg8] arg[c, main_arg10] arg[c, main_arg9] arg[c, main_arg11]
    arg[c, main_arg12] arg[c, main_arg14] arg[c, main_arg13] arg[c, main_arg15]
    (garch m c) ((arg[c, main_arg21] : S_.Idx → EReal) ix0) arg[c, main_arg16] arg[c, main_arg17] (idx 0) (idx 1)

theorem hz : (![0, 0] : Fin 2 → Nat) = fun _ => 0 := funext fun a => by fin_cases a <;> rfl

/-- What point `t` writes back is block `t` of `GK`. -/
theorem flushed_eq (c : Dev nD) (t : Fin cfg0.N) :
    (dats m 0 c).flushed 11 t = ((cfg0.win 11).blk t).view.read (Elt Ideal) (GK m c) := by
  show (cfg0.win 11).cut (grid0.coords t) ((dats m 0 c).after 11 t) = _
  rw [after0_11]
  unfold out0_11
  rw [View.canon_unit_zero hz]
  simp only [View.ld_unit_zero (S := S512x64) hz, View.ld_unit_zero (S := S512x1024) hz, View.ld_unit_zero (S := S512x1) hz,
    View.ld_unit_zero (S := S64x3072) hz, View.ld_unit_zero (S := S1024x2048) hz, View.ld_unit_zero (S := S1024x1024) hz,
    View.ld_unit_zero (S := S1x1024) hz]
  funext j
  obtain ⟨p, q, rfl⟩ : ∃ (p : Fin 512) (q : Fin 1024), j = ix2 p q := ⟨j 0, j 1, eq_ix2 j⟩
  have ht : t.val < 16 := by have h := t.isLt; have hN : cfg0.N = 16 := N_0; omega
  obtain ⟨i, hi⟩ : ∃ i : Fin 8192, i.val = 512 * t.val + p.val := ⟨⟨512 * t.val + p.val, by have := p.isLt; omega⟩, rfl⟩
  refine (KerEntry.pay_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    arg[c, main_arg0] arg[c, main_arg1] arg[c, main_arg4] arg[c, main_arg8] arg[c, main_arg12]
    arg[c, main_arg6] arg[c, main_arg10] arg[c, main_arg14]
    arg[c, main_arg5] arg[c, main_arg7] arg[c, main_arg9] arg[c, main_arg11] arg[c, main_arg13] arg[c, main_arg15]
    (garch m c) ((arg[c, main_arg21] : S_.Idx → EReal) ix0) arg[c, main_arg16] arg[c, main_arg17] i p q
    (fun k => (Blocks.rows0 m c t p k i hi).trans (congrFun (V_arg m c main_arg0 (by simp)) _))
    (fun k => (Blocks.rows1 m c t p k i hi).trans (congrFun (V_arg m c main_arg1 (by simp)) _))
    ((Blocks.rows2 m c t p i hi).trans (HostVal.col_g m c i))
    (fun k q q' hq => (Blocks.whole3 m c t k q').trans (HostVal.wcat_z m c k q q' hq))
    (fun k q q' hq => (Blocks.whole3 m c t k q').trans (HostVal.wcat_r m c k q q' hq))
    (fun k q q' hq => (Blocks.whole3 m c t k q').trans (HostVal.wcat_h m c k q q' hq))
    (fun k q q' hq => (Blocks.whole4 m c t k q').trans (HostVal.ucat_z m c k q q' hq))
    (fun k q q' hq => (Blocks.whole4 m c t k q').trans (HostVal.ucat_r m c k q q' hq))
    (fun k q => (Blocks.whole5 m c t k q).trans (HostVal.uh_t m c k q))
    (fun q => (Blocks.whole6 m c t q).trans (HostVal.bias_z m c q))
    (fun q => (Blocks.whole7 m c t q).trans (HostVal.bias_r m c q))
    (fun q => (Blocks.whole8 m c t q).trans (HostVal.bias_h m c q))
    (fun q => (Blocks.whole9 m c t q).trans (HostVal.row_wg m c q))
    (fun q => (Blocks.whole10 m c t q).trans (HostVal.row_wgb m c q))).trans ?_
  show _ = GK m c (((cfg0.win 11).blk t).view.emb (ix2 p q))
  rw [Blocks.out_emb t p q i hi]
  rfl

/-- The output array after the run. -/
theorem final (c : Dev nD) : (dats m 0 c).arrAt 11 cfg0.N = GK m c :=
  (dats m 0 c).arrAt_eq_of_cover 11 (GK m c) (fun t _ => flushed_eq m c t) Blocks.cover11

/-- The run with every result named: the new state is `GK`, the squared first input column and the variance
    vector are the host's stages, and the arguments are unchanged. -/
theorem run : θ_run defs (onTc (τ := τ) (main (F := Ideal))) ⟨m, fun _ => 0, ρ⟩ fun r => ∀ c : Dev nD,
      r.2.mem ((c.tc : Thread nD τ).loc main_v48) = GK m c
      ∧ r.2.mem ((c.tc : Thread nD τ).loc main_v22) = Cert.ReferenceIdeal.Read.val_main_v87 (F := Ideal) arg[c, main_arg0]
      ∧ r.2.mem ((c.tc : Thread nD τ).loc main_v19) = garch m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c => ⟨((h c).1 11).trans (final m c),
      ((h c).2 main_v22 (Pipeline.mem_restRefs_of main_v22 (by decide) (by decide))).trans (HostVal.v22_eq m c).symm,
      ((h c).2 main_v19 (Pipeline.mem_restRefs_of main_v19 (by decide) (by decide))).trans (HostVal.v19_eq m c).symm,
      ((h c).1 0).trans (((dats m 0 c).arrAt_in 0 rfl _).trans ((A_eq m c 0).trans (V_arg m c main_arg0 (by simp)))),
      ((h c).1 1).trans (((dats m 0 c).arrAt_in 1 rfl _).trans ((A_eq m c 1).trans (V_arg m c main_arg1 (by simp)))),
      ((h c).2 main_arg2 (Pipeline.mem_restRefs_of main_arg2 (by decide) (by decide))).trans (V_arg m c main_arg2 (by simp)),
      ((h c).2 main_arg3 (Pipeline.mem_restRefs_of main_arg3 (by decide) (by decide))).trans (V_arg m c main_arg3 (by simp)),
      ((h c).2 main_arg4 (Pipeline.mem_restRefs_of main_arg4 (by decide) (by decide))).trans (V_arg m c main_arg4 (by simp)),
      ((h c).2 main_arg5 (Pipeline.mem_restRefs_of main_arg5 (by decide) (by decide))).trans (V_arg m c main_arg5 (by simp)),
      ((h c).2 main_arg6 (Pipeline.mem_restRefs_of main_arg6 (by decide) (by decide))).trans (V_arg m c main_arg6 (by simp)),
      ((h c).2 main_arg7 (Pipeline.mem_restRefs_of main_arg7 (by decide) (by decide))).trans (V_arg m c main_arg7 (by simp)),
      ((h c).2 main_arg8 (Pipeline.mem_restRefs_of main_arg8 (by decide) (by decide))).trans (V_arg m c main_arg8 (by simp)),
      ((h c).2 main_arg9 (Pipeline.mem_restRefs_of main_arg9 (by decide) (by decide))).trans (V_arg m c main_arg9 (by simp)),
      ((h c).2 main_arg10 (Pipeline.mem_restRefs_of main_arg10 (by decide) (by decide))).trans (V_arg m c main_arg10 (by simp)),
      ((h c).2 main_arg11 (Pipeline.mem_restRefs_of main_arg11 (by decide) (by decide))).trans (V_arg m c main_arg11 (by simp)),
      ((h c).2 main_arg12 (Pipeline.mem_restRefs_of main_arg12 (by decide) (by decide))).trans (V_arg m c main_arg12 (by simp)),
      ((h c).2 main_arg13 (Pipeline.mem_restRefs_of main_arg13 (by decide) (by decide))).trans (V_arg m c main_arg13 (by simp)),
      ((h c).2 main_arg14 (Pipeline.mem_restRefs_of main_arg14 (by decide) (by decide))).trans (V_arg m c main_arg14 (by simp)),
      ((h c).2 main_arg15 (Pipeline.mem_restRefs_of main_arg15 (by decide) (by decide))).trans (V_arg m c main_arg15 (by simp)),
      ((h c).2 main_arg16 (Pipeline.mem_restRefs_of main_arg16 (by decide) (by decide))).trans (V_arg m c main_arg16 (by simp)),
      ((h c).2 main_arg17 (Pipeline.mem_restRefs_of main_arg17 (by decide) (by decide))).trans (V_arg m c main_arg17 (by simp)),
      ((h c).2 main_arg18 (Pipeline.mem_restRefs_of main_arg18 (by decide) (by decide))).trans (V_arg m c main_arg18 (by simp)),
      ((h c).2 main_arg19 (Pipeline.mem_restRefs_of main_arg19 (by decide) (by decide))).trans (V_arg m c main_arg19 (by simp)),
      ((h c).2 main_arg20 (Pipeline.mem_restRefs_of main_arg20 (by decide) (by decide))).trans (V_arg m c main_arg20 (by simp)),
      ((h c).2 main_arg21 (Pipeline.mem_restRefs_of main_arg21 (by decide) (by decide))).trans (V_arg m c main_arg21 (by simp))⟩)
    (run_main (F := Ideal) m ρ)

end Cert.KernelIdeal.Val

end
-- ==== Proof.RefEntry.lean ====
/-
  The reference program's result, read one entry at a time, is the second arrangement of the gated recurrent
  cell's formula (`Cert.GruSpec.outR`).

  The reference computes every matrix product as a contraction against a transposed weight, adds every bias as a
  vector broadcast along the rows, and spells the logistic function `1 / (1 + exp(-v))`.  Read at the entry
  `(i, j)`, a broadcast bias is the bias at `j`, a broadcast constant is the constant, a contraction against a
  transposed weight is the sum over `k` of the left operand at `(i, k)` times the weight at `(j, k)`.  With these
  reads each stage of the program is, term for term and in the same order, the corresponding definition of the
  specification: the two gates are `gateR`, the candidate state is `candR`, and the result is `outR`.  The
  variance vector the result uses is left as the program's own intermediate value, and the scale is the one entry of
  a rank-0 argument.  The program's second result is the square of the first input column.
-/
import proofs.«158569_j83605833383957_2_alg».proof.Proof.Gen.ReferenceIdeal.Read
import proofs.«158569_j83605833383957_2_alg».proof.Proof.GruSpec

noncomputable section

open scoped BigOperators

namespace Cert.RefEntry

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Reads of the layout operations at an entry -/

/-- A length-1024 vector broadcast along the rows of an `[8192, 1024]` array, read at `(i, j)`, is its entry `j`. -/
theorem bias_read (b : (⟨S1024, .f32⟩ : BufTy).Contents (Elt Ideal)) (i : Fin 8192) (j : Fin 1024) :
    val_main_v32 (F := Ideal) b (ix2 i j) = b (ix1 j) := by
  rw [val_main_v32_apply, val_main_v31_apply]
  refine congrArg b ?_
  funext a
  match a with
  | ⟨0, _⟩ => rfl

/-- The constant `1.0` broadcast over an `[8192, 1024]` array, read anywhere, is the value of its word. -/
theorem one_read (i : Fin 8192) (j : Fin 1024) :
    val_main_v44 (F := Ideal) (ix2 i j) = Cert.GruSpec.one32 := by
  rw [val_main_v44_apply]
  rfl

/-- `x·Wᵀ` at `(i, j)`: the contraction against the transposed `[1024, 64]` weight is the sum over `k` of
    `x i k * W j k`. -/
theorem xw_read (x : (⟨S8192x64, .f32⟩ : BufTy).Contents (Elt Ideal)) (W : (⟨S1024x64, .f32⟩ : BufTy).Contents (Elt Ideal))
    (i : Fin 8192) (j : Fin 1024) :
    val_main_v30 (F := Ideal) x W (ix2 i j) = Cert.GruSpec.xw x W i j := by
  rw [val_main_v30_apply]
  unfold Cert.GruSpec.xw
  refine Finset.sum_congr rfl fun k _ => ?_
  rw [val_main_v29_apply]
  have hl : lidx_main_v30 (ix2 i j) k = ix2 i k := by
    funext a
    match a with
    | ⟨0, _⟩ => rfl
    | ⟨1, _⟩ => rfl
  have hr : idx_main_v29 (ridx_main_v30 (ix2 i j) k) = ix2 j k := by
    funext a
    match a with
    | ⟨0, _⟩ => rfl
    | ⟨1, _⟩ => rfl
  rw [hl, hr]

/-- `h·Uᵀ` at `(i, j)`: the contraction against the transposed `[1024, 1024]` weight is the sum over `k` of
    `h i k * U j k`. -/
theorem hu_read (h : (⟨S8192x1024, .f32⟩ : BufTy).Contents (Elt Ideal)) (U : (⟨S1024x1024, .f32⟩ : BufTy).Contents (Elt Ideal))
    (i : Fin 8192) (j : Fin 1024) :
    val_main_v35 (F := Ideal) h U (ix2 i j) = Cert.GruSpec.hu h U i j := by
  rw [val_main_v35_apply]
  unfold Cert.GruSpec.hu
  refine Finset.sum_congr rfl fun k _ => ?_
  rw [val_main_v34_apply]
  have hl : lidx_main_v35 (ix2 i j) k = ix2 i k := by
    funext a
    match a with
    | ⟨0, _⟩ => rfl
    | ⟨1, _⟩ => rfl
  have hr : idx_main_v34 (ridx_main_v35 (ix2 i j) k) = ix2 j k := by
    funext a
    match a with
    | ⟨0, _⟩ => rfl
    | ⟨1, _⟩ => rfl
  rw [hl, hr]

/-! ## The gates -/

/-- A gate of the reference at `(i, j)` is `gateR`: `1 / (1 + exp(-(((x·W + b) + h·U) + b')))`. -/
theorem gate_read (x : (⟨S8192x64, .f32⟩ : BufTy).Contents (Elt Ideal)) (h : (⟨S8192x1024, .f32⟩ : BufTy).Contents (Elt Ideal))
    (W : (⟨S1024x64, .f32⟩ : BufTy).Contents (Elt Ideal)) (b : (⟨S1024, .f32⟩ : BufTy).Contents (Elt Ideal))
    (U : (⟨S1024x1024, .f32⟩ : BufTy).Contents (Elt Ideal)) (b' : (⟨S1024, .f32⟩ : BufTy).Contents (Elt Ideal))
    (i : Fin 8192) (j : Fin 1024) :
    val_main_v45 (F := Ideal) x h W b U b' (ix2 i j) = Cert.GruSpec.gateR x h W U b b' i j := by
  have hb' : val_main_v38 (F := Ideal) b' (ix2 i j) = b' (ix1 j) := bias_read b' i j
  have h1 : val_main_v42 (F := Ideal) (ix2 i j) = Cert.GruSpec.one32 := one_read i j
  rw [val_main_v45_apply, val_main_v43_apply, val_main_v41_apply, val_main_v40_apply, val_main_v39_apply,
    val_main_v36_apply, val_main_v33_apply, one_read, h1, xw_read, bias_read, hu_read, hb']
  rfl

/-! ## The candidate state -/

/-- The candidate state of the reference at `(i, j)` is `candR`: the reset gate is read at `(i, k)` inside the
    contraction, and the products and biases are added from left to right. -/
theorem cand_read (x0 : (⟨S8192x64, .f32⟩ : BufTy).Contents (Elt Ideal)) (x1 : (⟨S8192x1024, .f32⟩ : BufTy).Contents (Elt Ideal))
    (x8 : (⟨S1024x64, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (x12 : (⟨S1024x64, .f32⟩ : BufTy).Contents (Elt Ideal)) (x13 : (⟨S1024, .f32⟩ : BufTy).Contents (Elt Ideal))
    (x14 : (⟨S1024x1024, .f32⟩ : BufTy).Contents (Elt Ideal)) (x15 : (⟨S1024, .f32⟩ : BufTy).Contents (Elt Ideal))
    (i : Fin 8192) (j : Fin 1024) :
    val_main_v75 (F := Ideal) x0 x1 x8 x9 x10 x11 x12 x13 x14 x15 (ix2 i j)
      = Cert.GruSpec.candR x0 x1 x8 x10 x9 x11 x12 x14 x13 x15 i j := by
  have hsum : val_main_v70 (F := Ideal) x0 x1 x8 x9 x10 x11 x14 (ix2 i j)
      = ∑ k : Fin 1024, (Cert.GruSpec.gateR x0 x1 x8 x10 x9 x11 i k * x1 (ix2 i k)) * x14 (ix2 j k) := by
    rw [val_main_v70_apply]
    refine Finset.sum_congr rfl fun k _ => ?_
    have hl : lidx_main_v70 (ix2 i j) k = ix2 i k := by
      funext a
      match a with
      | ⟨0, _⟩ => rfl
      | ⟨1, _⟩ => rfl
    have hr : idx_main_v69 (ridx_main_v70 (ix2 i j) k) = ix2 j k := by
      funext a
      match a with
      | ⟨0, _⟩ => rfl
      | ⟨1, _⟩ => rfl
    have hg : val_main_v62 (F := Ideal) x0 x1 x8 x9 x10 x11 (ix2 i k) = Cert.GruSpec.gateR x0 x1 x8 x10 x9 x11 i k :=
      gate_read x0 x1 x8 x9 x10 x11 i k
    rw [val_main_v69_apply, hl, hr, val_main_v68_apply, hg, Ideal.mulf_def]
  have hxw : val_main_v64 (F := Ideal) x0 x12 (ix2 i j) = Cert.GruSpec.xw x0 x12 i j := xw_read x0 x12 i j
  have hb : val_main_v66 (F := Ideal) x13 (ix2 i j) = x13 (ix1 j) := bias_read x13 i j
  have hb' : val_main_v73 (F := Ideal) x15 (ix2 i j) = x15 (ix1 j) := bias_read x15 i j
  rw [val_main_v75_apply, val_main_v74_apply, val_main_v71_apply, val_main_v67_apply, hsum, hxw, hb, hb']
  rfl

/-! ## The variance term -/

/-- The variance vector broadcast along the columns, read at `(i, j)`, is its entry `i`. -/
theorem var_read (x2 x3 : (⟨S8192, .f32⟩ : BufTy).Contents (Elt Ideal)) (x18 x19 x20 : (⟨S_, .f32⟩ : BufTy).Contents (Elt Ideal))
    (i : Fin 8192) (j : Fin 1024) :
    val_main_v23 (F := Ideal) x2 x3 x18 x19 x20 (ix2 i j) = val_main_v19 (F := Ideal) x2 x3 x18 x19 x20 (ix1 i) := by
  rw [val_main_v23_apply, val_main_v20_apply]
  refine congrArg (val_main_v19 (F := Ideal) x2 x3 x18 x19 x20) ?_
  funext a
  match a with
  | ⟨0, _⟩ => rfl

/-- The `[1024, 1]` weight flattened and broadcast along the rows, read at `(i, j)`, is its entry `(j, 0)`. -/
theorem wg_read (x16 : (⟨S1024x1, .f32⟩ : BufTy).Contents (Elt Ideal)) (i : Fin 8192) (j : Fin 1024) :
    val_main_v24 (F := Ideal) x16 (ix2 i j) = x16 (ix2 j (0 : Fin 1)) := by
  rw [val_main_v24_apply, val_main_v22_apply, val_main_v21_apply]
  refine congrArg x16 ?_
  funext a
  match a with
  | ⟨0, _⟩ => exact Fin.ext (Nat.div_one _)
  | ⟨1, _⟩ => rfl

/-- A rank-0 value broadcast over the array, read anywhere, is its one entry. -/
theorem scale_read (x21 : (⟨S_, .f32⟩ : BufTy).Contents (Elt Ideal)) (i : Fin 8192) (j : Fin 1024) :
    val_main_v81 (F := Ideal) x21 (ix2 i j) = x21 ix0 := by
  rw [val_main_v81_apply]

/-! ## The results -/

/-- The reference's first result at `(i, j)` is `outR` on the program's arguments, with the variance vector the
    program's own intermediate value and the scale the one entry of its rank-0 argument. -/
theorem ref_entry (x0 : (⟨S8192x64, .f32⟩ : BufTy).Contents (Elt Ideal)) (x1 : (⟨S8192x1024, .f32⟩ : BufTy).Contents (Elt Ideal))
    (x2 x3 : (⟨S8192, .f32⟩ : BufTy).Contents (Elt Ideal))
    (x4 : (⟨S1024x64, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x64, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (x12 : (⟨S1024x64, .f32⟩ : BufTy).Contents (Elt Ideal)) (x13 : (⟨S1024, .f32⟩ : BufTy).Contents (Elt Ideal))
    (x14 : (⟨S1024x1024, .f32⟩ : BufTy).Contents (Elt Ideal)) (x15 : (⟨S1024, .f32⟩ : BufTy).Contents (Elt Ideal))
    (x16 : (⟨S1024x1, .f32⟩ : BufTy).Contents (Elt Ideal)) (x17 : (⟨S1024, .f32⟩ : BufTy).Contents (Elt Ideal))
    (x18 x19 x20 x21 : (⟨S_, .f32⟩ : BufTy).Contents (Elt Ideal)) (i : Fin 8192) (j : Fin 1024) :
    val_main_v84 (F := Ideal) x0 x1 x2 x3 x4 x5 x6 x7 x8 x9 x10 x11 x12 x13 x14 x15 x16 x17 x18 x19 x20 x21 (ix2 i j)
      = Cert.GruSpec.outR x0 x1 x4 x6 x5 x7 x8 x10 x9 x11 x12 x14 x13 x15
          (val_main_v19 (F := Ideal) x2 x3 x18 x19 x20) (x21 ix0) x16 x17 i j := by
  have h1 : val_main_v76 (F := Ideal) (ix2 i j) = Cert.GruSpec.one32 := one_read i j
  have hb : val_main_v27 (F := Ideal) x17 (ix2 i j) = x17 (ix1 j) := bias_read x17 i j
  rw [val_main_v84_apply, val_main_v83_apply, val_main_v80_apply, val_main_v78_apply, val_main_v77_apply,
    val_main_v79_apply, val_main_v82_apply, val_main_v28_apply, val_main_v25_apply, h1, gate_read, cand_read,
    scale_read, var_read, wg_read, hb]
  rfl

/-- The reference's second result at `i` is the square of the first input column's entry `i`. -/
theorem ref_eps (x0 : (⟨S8192x64, .f32⟩ : BufTy).Contents (Elt Ideal)) (i : Fin 8192) :
    val_main_v87 (F := Ideal) x0 (ix1 i) = x0 (ix2 i (0 : Fin 64)) * x0 (ix2 i (0 : Fin 64)) := by
  have hidx : idx_main_v85 (idx_main_v86 (ix1 i)) = ix2 i (0 : Fin 64) := by
    funext a
    match a with
    | ⟨0, _⟩ => exact Fin.ext (Nat.div_one _)
    | ⟨1, _⟩ => rfl
  rw [val_main_v87_apply, val_main_v86_apply, val_main_v85_apply, hidx, Ideal.mulf_def]

end Cert.RefEntry

end
-- ==== Proof.GruLaw.lean ====
/-
  The two arrangements of the gated recurrent cell's sums agree, entry by entry.

  Sums of extended reals commute and associate without any finiteness, so the pre-activations of the gates and of
  the candidate state are the same extended real in either arrangement; the logistic function is `1 / (1 + exp(-v))`
  by definition and the single-precision word of `1.0` denotes one.  Only the variance term needs real numbers:
  `γ * (g * w + b) = g * (γ * w) + γ * b` is distributivity, which holds on the reals.
-/
import proofs.«158569_j83605833383957_2_alg».proof.Proof.GruSpec

noncomputable section

open scoped BigOperators

namespace Cert.GruSpec

open Idealize.ShloMosaic Idealize.ShloMosaic.ValueIdx

/-- The single-precision word `0x3F800000` denotes the number one. -/
theorem one32_eq : one32 = 1 := by
  show Ideal.ofBits .f32 0x3F800000#32 = 1
  simp [Ideal.ofBits, Ideal.ieee, -EReal.coe_mul]; norm_num

/-- Four extended reals added as `(a + c) + (b + b')` or from left to right as `((a + b) + c) + b'`:
    addition of extended reals is commutative and associative, so no finiteness is needed. -/
theorem add4 (a b c b' : EReal) : (a + c) + (b + b') = ((a + b) + c) + b' := by
  rw [add_add_add_comm, ← add_assoc]

/-- The two spellings of a gate agree: the pre-activations are the same sum, and the logistic function is by
    definition `1 / (1 + exp(-v))`. -/
theorem gateK_eq_gateR (x : Mat 8192 64) (h : Mat 8192 1024) (W : Mat 1024 64) (U : Mat 1024 1024) (b b' : Vc 1024)
    (i : Fin 8192) (j : Fin 1024) : gateK x h W U b b' i j = gateR x h W U b b' i j := by
  unfold gateK gateR
  rw [one32_eq, add4, Ideal.logistic]

/-- The two spellings of the candidate state agree: the reset gates agree entry by entry under the sum, and the
    four summands of the pre-activation are regrouped. -/
theorem candK_eq_candR (x : Mat 8192 64) (h : Mat 8192 1024) (Wr : Mat 1024 64) (Ur : Mat 1024 1024) (br br' : Vc 1024)
    (Wh : Mat 1024 64) (Uh : Mat 1024 1024) (bh bh' : Vc 1024) (i : Fin 8192) (j : Fin 1024) :
    candK x h Wr Ur br br' Wh Uh bh bh' i j = candR x h Wr Ur br br' Wh Uh bh bh' i j := by
  unfold candK candR
  rw [add4]
  have hs : (∑ k : Fin 1024, (gateK x h Wr Ur br br' i k * h (ix2 i k)) * Uh (ix2 j k))
      = ∑ k : Fin 1024, (gateR x h Wr Ur br br' i k * h (ix2 i k)) * Uh (ix2 j k) :=
    Finset.sum_congr rfl fun k _ => by rw [gateK_eq_gateR]
  rw [hs]

/-- For real `γ, g, w, b` the factor `γ` distributes over `g * w + b`; on the extended reals this needs the four
    numbers finite, and is then the ring identity of the reals. -/
theorem var_term (γ g w b : EReal) (hγ : ∃ r : ℝ, γ = (r : EReal)) (hg : ∃ r : ℝ, g = (r : EReal))
    (hw : ∃ r : ℝ, w = (r : EReal)) (hb : ∃ r : ℝ, b = (r : EReal)) :
    g * (γ * w) + γ * b = γ * (g * w + b) := by
  obtain ⟨γ, rfl⟩ := hγ
  obtain ⟨g, rfl⟩ := hg
  obtain ⟨w, rfl⟩ := hw
  obtain ⟨b, rfl⟩ := hb
  have e : (g * (γ * w) + γ * b : ℝ) = γ * (g * w + b) := by ring
  exact_mod_cast congrArg (fun t : ℝ => (t : EReal)) e

/-- The two spellings of the new state agree: gates and candidate agree, and the variance term is the same real
    number however `γ` is multiplied in. -/
theorem outK_eq_outR (x : Mat 8192 64) (h : Mat 8192 1024) (Wz : Mat 1024 64) (Uz : Mat 1024 1024) (bz bz' : Vc 1024)
    (Wr : Mat 1024 64) (Ur : Mat 1024 1024) (br br' : Vc 1024)
    (Wh : Mat 1024 64) (Uh : Mat 1024 1024) (bh bh' : Vc 1024)
    (g : Vc 8192) (γ : EReal) (Wg : Mat 1024 1) (Wgb : Vc 1024) (i : Fin 8192) (j : Fin 1024)
    (hγ : ∃ r : ℝ, γ = (r : EReal)) (hg : ∃ r : ℝ, g (ix1 i) = (r : EReal))
    (hW : ∃ r : ℝ, Wg (ix2 j 0) = (r : EReal)) (hb : ∃ r : ℝ, Wgb (ix1 j) = (r : EReal)) :
    outK x h Wz Uz bz bz' Wr Ur br br' Wh Uh bh bh' g γ Wg Wgb i j
      = outR x h Wz Uz bz bz' Wr Ur br br' Wh Uh bh bh' g γ Wg Wgb i j := by
  unfold outK outR
  rw [gateK_eq_gateR, candK_eq_candR, var_term γ _ _ _ hγ hg hW hb]

end Cert.GruSpec

end
-- ==== Proof.LibBatchNorm.lean ====
/-
  Batch normalisation on the extended reals. For a column whose entries are reals, the variance taken from two running
  sums, E[z²] − (E z)², is the centred mean of squares E[(z − E z)²], a nonnegative real, and the normalised value is a real.
  Also: a column sum regrouped into tiles of rows, a left fold from zero as a finite sum, and three float words as reals.
-/
import Mathlib.Tactic
import Mathlib.Algebra.BigOperators.Fin
import Mathlib.Algebra.Order.BigOperators.Ring.Finset
import Idealize.ShloMosaic.PureOps.Ideal
import Idealize.ShloMosaic.PureOps.Ideal.Laws

noncomputable section

namespace LibBatchNorm

open Idealize.ShloMosaic
open scoped BigOperators

/-! ## Extended reals that are reals -/

/-- An extended real that is (the image of) a real number. -/
def IsReal (x : EReal) : Prop := ∃ r : ℝ, x = (r : EReal)

namespace IsReal

/-- A coerced real is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negative of a real is real. -/
theorem neg {x : EReal} (hx : IsReal x) : IsReal (-x) := by
  obtain ⟨a, rfl⟩ := hx
  exact ⟨-a, (EReal.coe_neg a).symm⟩

/-- The greater of two reals is real. -/
theorem max {x y : EReal} (hx : IsReal x) (hy : IsReal y) : IsReal (max x y) := by
  obtain ⟨a, rfl⟩ := hx; obtain ⟨b, rfl⟩ := hy
  exact ⟨Max.max a b, EReal.coe_strictMono.monotone.map_max.symm⟩

/-- A real is not the top element. -/
theorem ne_top {x : EReal} (hx : IsReal x) : x ≠ ⊤ := by
  obtain ⟨a, rfl⟩ := hx; exact EReal.coe_ne_top a

/-- A real is not the bottom element. -/
theorem ne_bot {x : EReal} (hx : IsReal x) : x ≠ ⊥ := by
  obtain ⟨a, rfl⟩ := hx; exact EReal.coe_ne_bot a

/-- A sum of reals over a finite set is real. -/
theorem sum_finset {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a finite type is real. -/
theorem sum {ι : Type*} [Fintype ι] (f : ι → EReal) (h : ∀ i, IsReal (f i)) : IsReal (∑ i, f i) :=
  sum_finset _ f fun i _ => h i

/-- A real divided by a nonzero real is real. -/
theorem div_real {x : EReal} (hx : IsReal x) {c : ℝ} (hc : c ≠ 0) : IsReal (Ideal.div x (c : EReal)) := by
  rw [Ideal.div_coe hc]; exact hx.mul (coe _)

end IsReal

/-! ## Coercion and finite sums -/

/-- The coercion of a real sum over a finite set is the sum of the coercions. -/
theorem coe_sum_finset {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a real sum over a finite type is the sum of the coercions. -/
theorem coe_sum {ι : Type*} [Fintype ι] (f : ι → ℝ) : ((∑ i, f i : ℝ) : EReal) = ∑ i, (f i : EReal) :=
  coe_sum_finset _ f

/-! ## The variance of a real column, in its two forms -/

/-- On the reals: the mean of squares minus the square of the mean is the mean of the squared deviations from the mean. -/
theorem real_var_two_forms {n : ℕ} (w : Fin n → ℝ) (c : ℝ) (hc : c = (n : ℝ)) (hn : 0 < n) :
    (∑ r, w r * w r) * (1 / c) - (∑ r, w r) * (1 / c) * ((∑ r, w r) * (1 / c))
      = (∑ r, (w r - (∑ r, w r) * (1 / c)) * (w r - (∑ r, w r) * (1 / c))) * (1 / c) := by
  have hc0 : c ≠ 0 := by rw [hc]; exact_mod_cast hn.ne'
  set S := ∑ r, w r with hS
  set Q := ∑ r, w r * w r with hQ
  have key : ∑ r, (w r - S * (1 / c)) * (w r - S * (1 / c)) = Q - 2 * (S * (1 / c)) * S + c * (S * (1 / c) * (S * (1 / c))) := by
    have h1 : ∀ r, (w r - S * (1 / c)) * (w r - S * (1 / c)) = w r * w r - 2 * (S * (1 / c)) * w r + S * (1 / c) * (S * (1 / c)) :=
      fun r => by ring
    simp only [h1, Finset.sum_add_distrib, Finset.sum_sub_distrib, ← Finset.mul_sum, Finset.sum_const, Finset.card_univ,
      Fintype.card_fin, nsmul_eq_mul, ← hc, ← hS, ← hQ]
    ring
  rw [key]
  field_simp
  ring

/-- The variance of a column of reals from its two running sums, mean of squares minus squared mean, is the mean of the squared
    deviations from the mean (division by the number of rows). -/
theorem var_two_forms {n : ℕ} (z : Fin n → EReal) (hz : ∀ r, IsReal (z r)) (c : ℝ) (hc : c = (n : ℝ)) (hn : 0 < n) :
    Ideal.div (∑ r, z r * z r) (c : EReal) - Ideal.div (∑ r, z r) (c : EReal) * Ideal.div (∑ r, z r) (c : EReal)
      = Ideal.div (∑ r, (z r - Ideal.div (∑ r, z r) (c : EReal)) * (z r - Ideal.div (∑ r, z r) (c : EReal))) (c : EReal) := by
  have hc0 : c ≠ 0 := by rw [hc]; exact_mod_cast hn.ne'
  choose w hw using hz
  obtain rfl : z = fun r => (w r : EReal) := funext hw
  simp only [Ideal.div_coe hc0, ← EReal.coe_mul, ← coe_sum, ← EReal.coe_sub]
  exact congrArg _ (real_var_two_forms w c hc hn)

/-- The mean of the squared deviations of a column of reals is a nonnegative real. -/
theorem var_centered_real_nonneg {n : ℕ} (z : Fin n → EReal) (hz : ∀ r, IsReal (z r)) (c : ℝ) (hc : c = (n : ℝ)) (hn : 0 < n) :
    ∃ v : ℝ, 0 ≤ v ∧
      Ideal.div (∑ r, (z r - Ideal.div (∑ r, z r) (c : EReal)) * (z r - Ideal.div (∑ r, z r) (c : EReal))) (c : EReal)
        = (v : EReal) := by
  have hc0 : c ≠ 0 := by rw [hc]; exact_mod_cast hn.ne'
  have hcpos : 0 < c := by rw [hc]; exact_mod_cast hn
  choose w hw using hz
  obtain rfl : z = fun r => (w r : EReal) := funext hw
  refine ⟨(∑ r, (w r - (∑ r, w r) * (1 / c)) * (w r - (∑ r, w r) * (1 / c))) * (1 / c), ?_, ?_⟩
  · exact mul_nonneg (Finset.sum_nonneg fun r _ => mul_self_nonneg _) (by positivity)
  · simp only [Ideal.div_coe hc0, ← EReal.coe_mul, ← coe_sum, ← EReal.coe_sub]

/-! ## The reciprocal square root and the normalised value -/

/-- The reciprocal square root of a positive real `v + e` (`0 ≤ v`, `0 < e`) is the real `(√(v + e))⁻¹`. -/
theorem rsqrt_pos_real_eq (v e : ℝ) (hv : 0 ≤ v) (he : 0 < e) :
    Ideal.rsqrt ((v : EReal) + (e : EReal)) = (((Real.sqrt (v + e))⁻¹ : ℝ) : EReal) := by
  have hpos : 0 < v + e := by linarith
  rw [← EReal.coe_add, Ideal.rsqrt_coe, if_neg (not_lt.mpr hpos.le), if_neg hpos.ne']

/-- The reciprocal square root of a positive real `v + e` (`0 ≤ v`, `0 < e`) is a real. -/
theorem rsqrt_pos_real (v e : ℝ) (hv : 0 ≤ v) (he : 0 < e) : IsReal (Ideal.rsqrt ((v : EReal) + (e : EReal))) :=
  ⟨_, rsqrt_pos_real_eq v e hv he⟩

/-- The normalised value `(z - mu) * s * g + b` of five reals is real. -/
theorem normalize_real {z mu s g b : EReal} (hz : IsReal z) (hmu : IsReal mu) (hs : IsReal s) (hg : IsReal g) (hb : IsReal b) :
    IsReal ((z - mu) * s * g + b) :=
  (((hz.sub hmu).mul hs).mul hg).add hb

/-! ## Three float words -/

/-- The word of `100000.0` denotes the real `100000`. -/
theorem ofBits_100000 : Ideal.ofBits .f32 0x47C35000#32 = ((100000 : ℝ) : EReal) := by
  simp [Ideal.ofBits, Ideal.ieee, -EReal.coe_mul]; norm_num

/-- The word of the float nearest `1e-5` denotes a positive real. -/
theorem ofBits_eps : ∃ e : ℝ, 0 < e ∧ Ideal.ofBits .f32 0x3727C5AC#32 = (e : EReal) := by
  refine ⟨((2 ^ 23 + 0x27C5AC : ℕ) : ℝ) * (2 : ℝ) ^ ((110 : ℤ) - 127 - 23), by positivity, ?_⟩
  simp [Ideal.ofBits, Ideal.ieee, -EReal.coe_mul]

/-- The word of `+0.0` denotes zero. -/
theorem ofBits_zero : Ideal.ofBits .f32 0x00000000#32 = 0 := Ideal.ofBits_zero_f32

/-! ## A column sum in tiles, and a left fold from zero -/

/-- Row `q` of tile `t`, among `a` tiles of `b` rows, is a row of the whole: `t * b + q < a * b`. -/
theorem tile_lt {a b : ℕ} (t : Fin a) (q : Fin b) : t.val * b + q.val < a * b :=
  calc t.val * b + q.val < t.val * b + b := by omega
    _ = (t.val + 1) * b := by ring
    _ ≤ a * b := Nat.mul_le_mul_right b t.isLt

/-- A sum over `a * b` rows is the sum over `a` tiles of the sums over the `b` rows of each tile. -/
theorem sum_tiles (a b : ℕ) (f : Fin (a * b) → EReal) :
    ∑ i, f i = ∑ t : Fin a, ∑ q : Fin b, f ⟨t.val * b + q.val, tile_lt t q⟩ := by
  rw [← Fintype.sum_prod_type', ← (finProdFinEquiv (m := a) (n := b)).sum_comp]
  refine Finset.sum_congr rfl fun p _ => congrArg f (Fin.ext ?_)
  simp [finProdFinEquiv, Nat.mul_comm, Nat.add_comm]

/-- The left fold `((0 + T 0) + T 1) + … + T k`. -/
def acc (T : ℕ → EReal) : ℕ → EReal
  | 0 => 0 + T 0
  | (k + 1) => acc T k + T (k + 1)

/-- The left fold from zero over the terms `T 0 … T k` is their sum. -/
theorem acc_eq_sum (T : ℕ → EReal) (k : ℕ) : acc T k = ∑ i ∈ Finset.range (k + 1), T i := by
  induction k with
  | zero => simp [acc]
  | succ k ih => rw [acc, ih, Finset.sum_range_succ (fun i => T i) (k + 1)]

/-- The left fold from zero of the sums of the `a + 1` tiles of `b` rows is the sum over all `(a + 1) * b` rows. -/
theorem acc_tiles (a b : ℕ) (f : Fin ((a + 1) * b) → EReal) (T : ℕ → EReal)
    (hT : ∀ t : Fin (a + 1), T t.val = ∑ q : Fin b, f ⟨t.val * b + q.val, tile_lt t q⟩) :
    acc T a = ∑ i, f i := by
  rw [acc_eq_sum, Finset.sum_range, sum_tiles]
  exact Finset.sum_congr rfl fun t _ => hT t

/-! ## Finite entries are reals -/

/-- An extended real that is neither infinity is a real. -/
theorem IsReal.of_ne_top_ne_bot {x : EReal} (ht : x ≠ ⊤) (hb : x ≠ ⊥) : IsReal x := by
  induction x using EReal.rec with
  | bot => exact absurd rfl hb
  | coe r => exact ⟨r, rfl⟩
  | top => exact absurd rfl ht

/-- An extended real whose absolute value `max x (-x)` is below the top is a real. -/
theorem IsReal.of_abs_lt_top {x : EReal} (h : Max.max x (-x) < ⊤) : IsReal x := by
  refine IsReal.of_ne_top_ne_bot ?_ ?_
  · rintro rfl; simp at h
  · rintro rfl; simp at h

/-- The word of `+∞` denotes the top. -/
theorem ofBits_inf : Ideal.ofBits .f32 0x7F800000#32 = ⊤ := by
  simp [Ideal.ofBits, Ideal.ieee]

/-- The finiteness test "`|x| < +∞` answers true" makes `x` a real. -/
theorem IsReal.of_finite_test {x : EReal}
    (h : Ideal.cmp .olt (Max.max x (-x)) (Ideal.ofBits .f32 0x7F800000#32) = 1#1) : IsReal x := by
  refine IsReal.of_abs_lt_top ?_
  rw [ofBits_inf] at h
  by_contra hlt
  simp [Ideal.cmp, hlt] at h

/-! ## The pieces of one batch normalisation, for a column of reals -/

/-- The mean of a column of reals is real. -/
theorem mean_real {n : ℕ} (z : Fin n → EReal) (hz : ∀ r, IsReal (z r)) (c : ℝ) (hc0 : c ≠ 0) :
    IsReal (Ideal.div (∑ r, z r) (c : EReal)) :=
  (IsReal.sum z hz).div_real hc0

/-- The reciprocal square root of the centred variance plus a positive real is real. -/
theorem inv_std_real {n : ℕ} (z : Fin n → EReal) (hz : ∀ r, IsReal (z r)) (c : ℝ) (hc : c = (n : ℝ)) (hn : 0 < n)
    (e : ℝ) (he : 0 < e) :
    IsReal (Ideal.rsqrt
      (Ideal.div (∑ r, (z r - Ideal.div (∑ r, z r) (c : EReal)) * (z r - Ideal.div (∑ r, z r) (c : EReal))) (c : EReal)
        + (e : EReal))) := by
  obtain ⟨v, hv, h⟩ := var_centered_real_nonneg z hz c hc hn
  rw [h]; exact rsqrt_pos_real v e hv he

/-- The reciprocal square root of the variance from the two running sums plus a positive real is real. -/
theorem inv_std_real_sums {n : ℕ} (z : Fin n → EReal) (hz : ∀ r, IsReal (z r)) (c : ℝ) (hc : c = (n : ℝ)) (hn : 0 < n)
    (e : ℝ) (he : 0 < e) :
    IsReal (Ideal.rsqrt
      (Ideal.div (∑ r, z r * z r) (c : EReal) - Ideal.div (∑ r, z r) (c : EReal) * Ideal.div (∑ r, z r) (c : EReal)
        + (e : EReal))) := by
  rw [var_two_forms z hz c hc hn]; exact inv_std_real z hz c hc hn e he

/-- The normalised value computed with the variance from the two running sums is the one computed with the centred variance. -/
theorem bn_two_forms {n : ℕ} (z : Fin n → EReal) (hz : ∀ r, IsReal (z r)) (c : ℝ) (hc : c = (n : ℝ)) (hn : 0 < n)
    (x eps g b : EReal) :
    (x - Ideal.div (∑ r, z r) (c : EReal))
        * Ideal.rsqrt (Ideal.div (∑ r, z r * z r) (c : EReal)
            - Ideal.div (∑ r, z r) (c : EReal) * Ideal.div (∑ r, z r) (c : EReal) + eps) * g + b
      = (x - Ideal.div (∑ r, z r) (c : EReal))
        * Ideal.rsqrt (Ideal.div (∑ r, (z r - Ideal.div (∑ r, z r) (c : EReal)) * (z r - Ideal.div (∑ r, z r) (c : EReal)))
            (c : EReal) + eps) * g + b := by
  rw [var_two_forms z hz c hc hn]

/-- The normalised value of an entry of a column of reals, with real scale and shift and a positive real under the root, is real. -/
theorem bn_out_real {n : ℕ} (z : Fin n → EReal) (hz : ∀ r, IsReal (z r)) (c : ℝ) (hc : c = (n : ℝ)) (hn : 0 < n)
    (e : ℝ) (he : 0 < e) {g b : EReal} (hg : IsReal g) (hb : IsReal b) (i : Fin n) :
    IsReal ((z i - Ideal.div (∑ r, z r) (c : EReal))
        * Ideal.rsqrt (Ideal.div (∑ r, (z r - Ideal.div (∑ r, z r) (c : EReal)) * (z r - Ideal.div (∑ r, z r) (c : EReal)))
            (c : EReal) + (e : EReal)) * g + b) :=
  normalize_real (hz i) (mean_real z hz c (by rw [hc]; exact_mod_cast hn.ne')) (inv_std_real z hz c hc hn e he) hg hb

/-! ## The divisor and the guard of a variance with a zero correction -/

/-- The count of rows less an integer zero read as a float is the count of rows. -/
theorem count_sub_zero (c : ℝ) (k : ℤ) (hk : k = 0) : (c : EReal) - (((k : ℝ) : ℝ) : EReal) = (c : EReal) := by
  subst hk; simp

/-- A positive real compares greater than zero. -/
theorem cmp_ogt_pos (c : ℝ) (hc : 0 < c) : Ideal.cmp .ogt (c : EReal) 0 = 1#1 := by
  have h : (0 : EReal) < (c : EReal) := by exact_mod_cast hc
  simp [Ideal.cmp, h]

end LibBatchNorm

end
-- ==== Proof.GruReal.lean ====
/-
  Finiteness for the gated recurrent cell with a variance term.

  First: the precondition is a conjunction of twenty-two tests `all |x| < +∞`, one per argument array; when it answers 1,
  every entry of every tested array is a real number (neither infinity).  Second: the variance recursion
  `ω + a * x2 + b * x3` with `ω = softplus(x18) + ε`, `a = 1 / (1 + exp(-x19))`, `b = (1 / (1 + exp(-x20))) * (1 - a * c)`
  takes real inputs to real values: the exponential of a real is a positive real, so `1 + exp` is a nonzero real and its
  reciprocal is real; `log(1 + e)` of a positive real is real; sums, products, differences and maxima of reals are real;
  the finite words `ε` and `c` denote reals.
-/
import proofs.«158569_j83605833383957_2_alg».proof.Defs
import proofs.«158569_j83605833383957_2_alg».proof.Proof.Gen.ReferenceIdeal.Read
import Idealize.ShloMosaic.Lib.ReduceAll
import Idealize.ShloMosaic.Lib.ValueIdx
import proofs.«158569_j83605833383957_2_alg».proof.Proof.LibBatchNorm

noncomputable section

namespace Cert.GruReal
open Idealize.ShloMosaic Idealize.SL.Sem LibBatchNorm
open Cert.Pre_finite_inputs (Facts)

/-- The rank-0 shape has one index. -/
instance : Subsingleton Cert.Pre_finite_inputs.S_.Idx := ⟨fun a b => funext fun d => d.elim0⟩

/-- A conjunction of two one-bit arrays that is 1 at an index has both 1 there. -/
theorem vandi_eq_one {s : Shape} {x y : IVec s 1} {i : s.Idx} (h : andi x y i = 1#1) : x i = 1#1 ∧ y i = 1#1 :=
  IntOp.andi_eq_one.1 h

/-- The test `|x| < +∞` against the broadcast word of `+∞`, answering 1 at an index, makes the entry there a real. -/
theorem real_of_test_bcast {s : Shape} (x : FVec Ideal s .f32)
    (hb : Cert.Pre_finite_inputs.S_.BroadcastsInDim s (![] : Fin 0 → Fin s.rank)) (i : s.Idx)
    (h : cmpf .olt (Host.absf x) (broadcastInDim s ![] hb (constant Cert.Pre_finite_inputs.S_ .f32 0x7F800000#32)) i = 1#1) :
    ∃ r : ℝ, x i = (r : EReal) :=
  IsReal.of_finite_test h

/-- The same test on a rank-0 array, where the word of `+∞` is not broadcast. -/
theorem real_of_test_scalar (x : FVec Ideal Cert.Pre_finite_inputs.S_ .f32) (i : Cert.Pre_finite_inputs.S_.Idx)
    (h : cmpf .olt (Host.absf x) (constant Cert.Pre_finite_inputs.S_ .f32 0x7F800000#32) i = 1#1) :
    ∃ r : ℝ, x i = (r : EReal) :=
  IsReal.of_finite_test h

/-- When the printed finiteness test of the twenty-two argument arrays answers 1, every entry of the arrays it tests is a
    real number; stated for the eight arrays used downstream.  The test is a conjunction of twenty-two `all |x| < +∞`,
    so each conjunct is 1, each reduction by `and` being 1 makes every compared entry 1, and `|x| < +∞` makes `x` real. -/
theorem fn_real [Cert.Pre_finite_inputs.Facts]
    (a0 : FVec Ideal Cert.Pre_finite_inputs.S8192x64 .f32) (a1 : FVec Ideal Cert.Pre_finite_inputs.S8192x1024 .f32) (a2 : FVec Ideal Cert.Pre_finite_inputs.S8192 .f32)
    (a3 : FVec Ideal Cert.Pre_finite_inputs.S8192 .f32) (a4 : FVec Ideal Cert.Pre_finite_inputs.S1024x64 .f32) (a5 : FVec Ideal Cert.Pre_finite_inputs.S1024 .f32)
    (a6 : FVec Ideal Cert.Pre_finite_inputs.S1024x1024 .f32) (a7 : FVec Ideal Cert.Pre_finite_inputs.S1024 .f32) (a8 : FVec Ideal Cert.Pre_finite_inputs.S1024x64 .f32)
    (a9 : FVec Ideal Cert.Pre_finite_inputs.S1024 .f32) (a10 : FVec Ideal Cert.Pre_finite_inputs.S1024x1024 .f32) (a11 : FVec Ideal Cert.Pre_finite_inputs.S1024 .f32)
    (a12 : FVec Ideal Cert.Pre_finite_inputs.S1024x64 .f32) (a13 : FVec Ideal Cert.Pre_finite_inputs.S1024 .f32) (a14 : FVec Ideal Cert.Pre_finite_inputs.S1024x1024 .f32)
    (a15 : FVec Ideal Cert.Pre_finite_inputs.S1024 .f32) (a16 : FVec Ideal Cert.Pre_finite_inputs.S1024x1 .f32) (a17 : FVec Ideal Cert.Pre_finite_inputs.S1024 .f32)
    (a18 : FVec Ideal Cert.Pre_finite_inputs.S_ .f32) (a19 : FVec Ideal Cert.Pre_finite_inputs.S_ .f32) (a20 : FVec Ideal Cert.Pre_finite_inputs.S_ .f32)
    (a21 : FVec Ideal Cert.Pre_finite_inputs.S_ .f32)
    (h : Cert.Pre_finite_inputs.fn (F := Ideal) a0 a1 a2 a3 a4 a5 a6 a7 a8 a9 a10 a11 a12 a13 a14 a15 a16 a17 a18 a19 a20 a21
      = fun _ => 1#1) :
    (∀ i, ∃ r : ℝ, a2 i = (r : EReal)) ∧
      (∀ i, ∃ r : ℝ, a3 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) ∧
      (∀ i, ∃ r : ℝ, a20 i = (r : EReal)) ∧
      (∀ i, ∃ r : ℝ, a21 i = (r : EReal)) := by
  have h0 := congrFun h Idealize.ShloMosaic.ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  obtain ⟨h0, t21⟩ := vandi_eq_one h0
  obtain ⟨h0, t20⟩ := vandi_eq_one h0
  obtain ⟨h0, t19⟩ := vandi_eq_one h0
  obtain ⟨h0, t18⟩ := vandi_eq_one h0
  obtain ⟨h0, t17⟩ := vandi_eq_one h0
  obtain ⟨h0, t16⟩ := vandi_eq_one h0
  obtain ⟨h0, t15⟩ := vandi_eq_one h0
  obtain ⟨h0, t14⟩ := vandi_eq_one h0
  obtain ⟨h0, t13⟩ := vandi_eq_one h0
  obtain ⟨h0, t12⟩ := vandi_eq_one h0
  obtain ⟨h0, t11⟩ := vandi_eq_one h0
  obtain ⟨h0, t10⟩ := vandi_eq_one h0
  obtain ⟨h0, t9⟩ := vandi_eq_one h0
  obtain ⟨h0, t8⟩ := vandi_eq_one h0
  obtain ⟨h0, t7⟩ := vandi_eq_one h0
  obtain ⟨h0, t6⟩ := vandi_eq_one h0
  obtain ⟨h0, t5⟩ := vandi_eq_one h0
  obtain ⟨h0, t4⟩ := vandi_eq_one h0
  obtain ⟨h0, t3⟩ := vandi_eq_one h0
  obtain ⟨h0, t2⟩ := vandi_eq_one h0
  obtain ⟨h0, t1⟩ := vandi_eq_one h0
  exact ⟨fun i => real_of_test_bcast a2 Facts.bcast_S_S8192 i (Host.reduce_andi_all _ _ _ _ _ t2 i),
    fun i => real_of_test_bcast a3 Facts.bcast_S_S8192 i (Host.reduce_andi_all _ _ _ _ _ t3 i),
    fun i => real_of_test_bcast a16 Facts.bcast_S_S1024x1 i (Host.reduce_andi_all _ _ _ _ _ t16 i),
    fun i => real_of_test_bcast a17 Facts.bcast_S_S1024 i (Host.reduce_andi_all _ _ _ _ _ t17 i),
    fun i => real_of_test_scalar a18 i (Host.reduce_andi_all _ _ _ _ _ t18 i),
    fun i => real_of_test_scalar a19 i (Host.reduce_andi_all _ _ _ _ _ t19 i),
    fun i => real_of_test_scalar a20 i (Host.reduce_andi_all _ _ _ _ _ t20 i),
    fun i => real_of_test_scalar a21 i (Host.reduce_andi_all _ _ _ _ _ t21 i)⟩

/-- Under the precondition, every entry of the eight argument arrays that enter the variance term is a real number. -/
theorem inputs_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg2) i = (r : EReal)) ∧
    (∀ i, ∃ r : ℝ, m ((c.tc : Thread Cert.KernelIdeal.nD Cert.KernelIdeal.τ).loc Cert.KernelIdeal.main_arg3) i = (r : EReal)) ∧
    (∀ i, ∃ r : ℝ, m ((c.tc : Thread Cert.KernelIdeal.nD Cert.KernelIdeal.τ).loc Cert.KernelIdeal.main_arg16) i = (r : EReal)) ∧
    (∀ i, ∃ r : ℝ, m ((c.tc : Thread Cert.KernelIdeal.nD Cert.KernelIdeal.τ).loc Cert.KernelIdeal.main_arg17) i = (r : EReal)) ∧
    (∀ i, ∃ r : ℝ, m ((c.tc : Thread Cert.KernelIdeal.nD Cert.KernelIdeal.τ).loc Cert.KernelIdeal.main_arg18) i = (r : EReal)) ∧
    (∀ i, ∃ r : ℝ, m ((c.tc : Thread Cert.KernelIdeal.nD Cert.KernelIdeal.τ).loc Cert.KernelIdeal.main_arg19) i = (r : EReal)) ∧
    (∀ i, ∃ r : ℝ, m ((c.tc : Thread Cert.KernelIdeal.nD Cert.KernelIdeal.τ).loc Cert.KernelIdeal.main_arg20) i = (r : EReal)) ∧
    (∀ i, ∃ r : ℝ, m ((c.tc : Thread Cert.KernelIdeal.nD Cert.KernelIdeal.τ).loc Cert.KernelIdeal.main_arg21) i = (r : EReal)) :=
  fn_real _ _ _ _ _ _ _ _ _ _ _ _ _ _ _ _ _ _ _ _ _ _ (hpre c)

/-! ## Elementary functions of reals -/

/-- The single-precision word `0x3F800000` denotes the number one. -/
theorem ofBits_one : Ideal.ofBits .f32 0x3F800000#32 = 1 := by
  simp [Ideal.ofBits, Ideal.ieee, -EReal.coe_mul]; norm_num

/-- A single-precision word whose exponent field is not all ones denotes a real: a signed multiple of a power of two. -/
theorem ofBits_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

/-- The exponential of a real is a positive real. -/
theorem exp_real_pos {x : EReal} (hx : IsReal x) : ∃ e : ℝ, 0 < e ∧ Ideal.exp x = (e : EReal) := by
  obtain ⟨r, rfl⟩ := hx
  exact ⟨Real.exp r, Real.exp_pos r, rfl⟩

/-- `log(1 + e)` of a positive real `e` is a real. -/
theorem log1p_real {e : ℝ} (he : 0 < e) : IsReal (Ideal.log1p (e : EReal)) := by
  have h1 : (1 : EReal) + (e : EReal) = ((1 + e : ℝ) : EReal) := by rw [EReal.coe_add, EReal.coe_one]
  rw [Ideal.log1p, h1, Ideal.log_coe, if_neg (by linarith)]
  exact ⟨_, rfl⟩

/-- The logistic function of a real is a real. -/
theorem logistic_real {x : EReal} (hx : IsReal x) : IsReal (Ideal.logistic x) := by
  obtain ⟨r, rfl⟩ := hx
  exact ⟨_, Ideal.logistic_coe r⟩

/-- A value never compares unequal to itself, so a selection on that test takes its second branch. -/
theorem select_une_self {α : Type} (v : EReal) (a b : α) : Scalar.select (Ideal.cmp .une v v) a b = b := by
  simp [Scalar.select, Ideal.cmp]

/-! ## The three scalar coefficients of the variance recursion -/

/-- `1 / (1 + exp(-x19))` is a real. -/
theorem v5_real (x19 : (⟨Cert.ReferenceIdeal.S_, .f32⟩ : BufTy).Contents (Elt Ideal)) (h19 : ∀ i, ∃ r : ℝ, x19 i = (r : EReal))
    (j : Cert.ReferenceIdeal.S_.Idx) : IsReal (Cert.ReferenceIdeal.Read.val_main_v5 (F := Ideal) x19 j) := by
  show IsReal (Ideal.div (Ideal.ofBits .f32 0x3F800000#32) (Ideal.ofBits .f32 0x3F800000#32 + Ideal.exp (-(x19 j))))
  rw [ofBits_one]
  exact logistic_real (h19 j)

/-- `1 / (1 + exp(-x20))` is a real. -/
theorem v9_real (x20 : (⟨Cert.ReferenceIdeal.S_, .f32⟩ : BufTy).Contents (Elt Ideal)) (h20 : ∀ i, ∃ r : ℝ, x20 i = (r : EReal))
    (j : Cert.ReferenceIdeal.S_.Idx) : IsReal (Cert.ReferenceIdeal.Read.val_main_v9 (F := Ideal) x20 j) := by
  show IsReal (Ideal.div (Ideal.ofBits .f32 0x3F800000#32) (Ideal.ofBits .f32 0x3F800000#32 + Ideal.exp (-(x20 j))))
  rw [ofBits_one]
  exact logistic_real (h20 j)

/-- `(1 / (1 + exp(-x20))) * (1 - (1 / (1 + exp(-x19))) * c)`, `c` a finite word, is a real. -/
theorem v12_real (x19 x20 : (⟨Cert.ReferenceIdeal.S_, .f32⟩ : BufTy).Contents (Elt Ideal))
    (h19 : ∀ i, ∃ r : ℝ, x19 i = (r : EReal)) (h20 : ∀ i, ∃ r : ℝ, x20 i = (r : EReal))
    (j : Cert.ReferenceIdeal.S_.Idx) : IsReal (Cert.ReferenceIdeal.Read.val_main_v12 (F := Ideal) x19 x20 j) := by
  show IsReal (Cert.ReferenceIdeal.Read.val_main_v9 (F := Ideal) x20 j
    * (Ideal.ofBits .f32 0x3F800000#32 - Cert.ReferenceIdeal.Read.val_main_v5 (F := Ideal) x19 j * Ideal.ofBits .f32 0x3F7D70A4#32))
  rw [ofBits_one]
  exact (v9_real x20 h20 j).mul (IsReal.one.sub ((v5_real x19 h19 j).mul (ofBits_real _ (by decide))))

/-- The softplus of `x18`, printed as a selection on `v ≠ v` between `x18 + 0` and
    `max(x18, 0) + log(1 + exp(-|x18 - 0|))`, plus a finite word, is a real. -/
theorem v1_real (x18 : (⟨Cert.ReferenceIdeal.S_, .f32⟩ : BufTy).Contents (Elt Ideal)) (h18 : ∀ i, ∃ r : ℝ, x18 i = (r : EReal))
    (j : Cert.ReferenceIdeal.S_.Idx) : IsReal (Cert.ReferenceIdeal.Read.val_main_v1 (F := Ideal) x18 j) := by
  have hx : IsReal (x18 j) := h18 j
  show IsReal (Scalar.select (Ideal.cmp .une (x18 j - Ideal.ofBits .f32 0x00000000#32) (x18 j - Ideal.ofBits .f32 0x00000000#32))
      (x18 j + Ideal.ofBits .f32 0x00000000#32)
      (max (x18 j) (Ideal.ofBits .f32 0x00000000#32)
        + Ideal.log1p (Ideal.exp (-(max (x18 j - Ideal.ofBits .f32 0x00000000#32) (-(x18 j - Ideal.ofBits .f32 0x00000000#32))))))
    + Ideal.ofBits .f32 0x358637BD#32)
  rw [select_une_self, Ideal.ofBits_zero_f32]
  have hd : IsReal (x18 j - 0) := hx.sub IsReal.zero
  obtain ⟨e, he, hexp⟩ := exp_real_pos (hd.max hd.neg).neg
  rw [hexp]
  exact ((hx.max IsReal.zero).add (log1p_real he)).add (ofBits_real _ (by decide))

/-! ## The variance recursion -/

/-- Every entry of `ω + a * x2 + b * x3` is a real when the five inputs are. -/
theorem garch_real (x2 x3 : (⟨Cert.ReferenceIdeal.S8192, .f32⟩ : BufTy).Contents (Elt Ideal))
    (x18 x19 x20 : (⟨Cert.ReferenceIdeal.S_, .f32⟩ : BufTy).Contents (Elt Ideal))
    (h2 : ∀ i, ∃ r : ℝ, x2 i = (r : EReal)) (h3 : ∀ i, ∃ r : ℝ, x3 i = (r : EReal))
    (h18 : ∀ i, ∃ r : ℝ, x18 i = (r : EReal)) (h19 : ∀ i, ∃ r : ℝ, x19 i = (r : EReal))
    (h20 : ∀ i, ∃ r : ℝ, x20 i = (r : EReal)) (i : Fin 8192) :
    ∃ r : ℝ, Cert.ReferenceIdeal.Read.val_main_v19 (F := Ideal) x2 x3 x18 x19 x20 (Idealize.ShloMosaic.ValueIdx.ix1 i) = (r : EReal) := by
  rw [Cert.ReferenceIdeal.Read.val_main_v19_apply, Cert.ReferenceIdeal.Read.val_main_v16_apply, Cert.ReferenceIdeal.Read.val_main_v18_apply, Cert.ReferenceIdeal.Read.val_main_v15_apply,
    Cert.ReferenceIdeal.Read.val_main_v14_apply, Cert.ReferenceIdeal.Read.val_main_v17_apply, Cert.ReferenceIdeal.Read.val_main_v13_apply]
  exact ((v1_real x18 h18 _).add ((v5_real x19 h19 _).mul (h2 _))).add ((v12_real x19 x20 h19 h20 _).mul (h3 _))

end Cert.GruReal

end
-- ==== Proof.lean ====
/-
  The five claims about the gated recurrent cell driven by a variance term.

  The kernel program fuses the cell's six matrix products into three (the three input weight matrices transposed and
  joined side by side, likewise the update and reset state weights), adds each gate's two biases on the host, and
  folds the scale γ into the variance weights; the reference computes the cell operation by operation.  On the
  extended reals the two agree entry by entry: sums commute and associate with no finiteness, a change of float
  format is the identity, the logistic function is `1 / (1 + exp(-v))`, and γ distributes over the variance term because
  γ, the variance weights and the variance vector are real for finite inputs (the one use of the precondition).

  The frames of the two kernel programs are proved at any float instance from the pipeline's launch theorem, the
  body run symbolically; the reference's frame is its run with the results dropped.  The idealization rewrote nothing,
  so it preserves the program trivially.
-/
import proofs.«158569_j83605833383957_2_alg».proof.Defs
import proofs.«158569_j83605833383957_2_alg».proof.Proof.Gen.Kernel
import proofs.«158569_j83605833383957_2_alg».proof.Proof.Gen.KernelIdeal
import proofs.«158569_j83605833383957_2_alg».proof.Proof.Gen.ReferenceIdeal
import proofs.«158569_j83605833383957_2_alg».proof.Proof.Gen.Pre_finite_inputs
import proofs.«158569_j83605833383957_2_alg».proof.Proof.Gen.ReferenceIdeal.Read
import proofs.«158569_j83605833383957_2_alg».proof.Proof.KFrame
import proofs.«158569_j83605833383957_2_alg».proof.Proof.KIFrame
import proofs.«158569_j83605833383957_2_alg».proof.Proof.KerValue
import proofs.«158569_j83605833383957_2_alg».proof.Proof.RefEntry
import proofs.«158569_j83605833383957_2_alg».proof.Proof.GruLaw
import proofs.«158569_j83605833383957_2_alg».proof.Proof.GruReal
import Idealize.ShloMosaic.Adequacy
import Idealize.ShloMosaic.Init

noncomputable section

namespace Cert.Proof

open Idealize.ShloMosaic Idealize.ShloMosaic.TcCoe Idealize.SL.Sem Idealize.ShloMosaic.ValueIdx

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The new state: the kernel's array is the first arrangement of the arguments, the reference's stage the second;
    the two agree where γ, the variance weights and the variance vector are real. -/
theorem state_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
    = Cert.KernelIdeal.Val.GK m c := by
  obtain ⟨r2, r3, r16, r17, r18, r19, r20, r21⟩ := Cert.GruReal.inputs_real m hpre c
  funext idx
  obtain ⟨i, j, rfl⟩ : ∃ (i : Fin 8192) (j : Fin 1024), idx = ix2 i j := ⟨idx 0, idx 1, eq_ix2 idx⟩
  rw [Cert.RefEntry.ref_entry]
  exact (Cert.GruSpec.outK_eq_outR _ _ _ _ _ _ _ _ _ _ _ _ _ _ _ _ _ _ i j (r21 ix0)
    (Cert.GruReal.garch_real _ _ _ _ _ r2 r3 r18 r19 r20 i) (r16 (ix2 j 0)) (r17 (ix1 j))).symm

theorem algebraic : Cert.algebraic_KernelIdeal_ReferenceIdeal := by
  intro m ρ m' ρ' hpre hagree
  refine ⟨fun c => Cert.KernelIdeal.Val.GK m c,
    fun c => Cert.ReferenceIdeal.Read.val_main_v87 (F := Ideal) (m ((c.tc : Thread Cert.KernelIdeal.nD Cert.KernelIdeal.τ).loc Cert.KernelIdeal.main_arg0)),
    fun c => Cert.KernelIdeal.Val.garch m c, Cert.KernelIdeal.Val.run m ρ, ?_⟩
  refine (θ_run Cert.ReferenceIdeal.defs _ _).mono (fun _ h c => ⟨?_, ?_, ?_, (h c).2.2.2⟩)
    (Cert.ReferenceIdeal.Value.run (F := Ideal) m' ρ')
  · obtain ⟨a0, a1, a2, a3, a4, a5, a6, a7, a8, a9, a10, a11, a12, a13, a14, a15, a16, a17, a18, a19, a20, a21⟩ := hagree c
    rw [(h c).1, Cert.ReferenceIdeal.Read.val_main_v84_eq, a0, a1, a2, a3, a4, a5, a6, a7, a8, a9, a10, a11, a12, a13, a14, a15, a16, a17, a18, a19, a20, a21]
    exact state_eq m hpre c
  · rw [(h c).2.1, Cert.ReferenceIdeal.Read.val_main_v87_eq, (hagree c).1]
  · obtain ⟨a0, a1, a2, a3, a4, a5, a6, a7, a8, a9, a10, a11, a12, a13, a14, a15, a16, a17, a18, a19, a20, a21⟩ := hagree c
    rw [(h c).2.2.1, Cert.ReferenceIdeal.Read.val_main_v19_eq, a2, a3, a18, a19, a20]
    try rfl

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
